-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S3200000 : Shape := ⟨1, ![3200000]⟩
abbrev S3200000x2 : Shape := ⟨2, ![3200000, 2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3200000x2 : S_.BroadcastsInDim S3200000x2 (![] : Fin 0 → Fin S3200000x2.rank)
  reducesTo_S3200000x2_S_d0_1 : S3200000x2.ReducesTo [0, 1] S_

variable [Facts]

def fn_part1 {F : FTy → Type} [FloatOps F] (main_v13 : IVec S_ 1) (main_v15 : FVec F S3200000x2 .f32) (main_cst_5 : FVec F S_ .f32) : IVec S_ 1 :=
  let main_v16 : FVec F S3200000x2 .f32 := broadcastInDim S3200000x2 ![] bcast_S_S3200000x2 main_cst_5
  let main_v17 : IVec S3200000x2 1 := cmpf .une main_v15 main_v16
  let main_c_6 : IVec S_ 1 := constantI S_ 1 1#1
  let main_v18 : IVec S_ 1 := (fun x v => Host.reduce IntOp.andi x v reducesTo_S3200000x2_S_d0_1 h_S_) main_v17 main_c_6
  let main_v19 : IVec S_ 1 := andi main_v13 main_v18
  main_v19

def fn {F : FTy → Type} [FloatOps F] (main_arg0 : FVec F S100000x4 .f32) (main_arg1 : IVec S2x3200000 32) (main_arg2 : FVec F S3200000 .f32) (main_arg3 : FVec F S3200000x2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000x2 .f32 := Host.absf main_arg3
  let main_cst_2 : FVec F S_ .f32 := constant S_ .f32 0x7F800000#32
  let main_v10 : FVec F S3200000x2 .f32 := broadcastInDim S3200000x2 ![] bcast_S_S3200000x2 main_cst_2
  let main_v11 : IVec S3200000x2 1 := cmpf .olt main_v9 main_v10
  let main_c_3 : IVec S_ 1 := constantI S_ 1 1#1
  let main_v12 : IVec S_ 1 := (fun x v => Host.reduce IntOp.andi x v reducesTo_S3200000x2_S_d0_1 h_S_) main_v11 main_c_3
  let main_v13 : IVec S_ 1 := andi main_v8 main_v12
  let main_cst_4 : FVec F S_ .f32 := constant S_ .f32 0x358637BD#32
  let main_v14 : FVec F S3200000x2 .f32 := broadcastInDim S3200000x2 ![] bcast_S_S3200000x2 main_cst_4
  let main_v15 : FVec F S3200000x2 .f32 := addf main_arg3 main_v14
  let main_cst_5 : FVec F S_ .f32 := constant S_ .f32 0x00000000#32
  fn_part1 (F := F) main_v13 main_v15 main_cst_5
-- ==== Kernel.lean ====
abbrev S100000x4 : Shape := ⟨2, ![100000, 4]⟩
abbrev S2x3200000 : Shape := ⟨2, ![2, 3200000]⟩
abbrev S3200000 : Shape := ⟨1, ![3200000]⟩
abbrev S3200000x2 : Shape := ⟨2, ![3200000, 2]⟩
abbrev S1x3200000 : Shape := ⟨2, ![1, 3200000]⟩
abbrev S100000x1 : Shape := ⟨2, ![100000, 1]⟩
abbrev S100000 : Shape := ⟨1, ![100000]⟩
abbrev S_ : Shape := ⟨0, ![]⟩
abbrev S3200000x1 : Shape := ⟨2, ![3200000, 1]⟩
abbrev S25000x128 : Shape := ⟨2, ![25000, 128]⟩
abbrev S5000x128 : Shape := ⟨2, ![5000, 128]⟩
abbrev S100000x2 : Shape := ⟨2, ![100000, 2]⟩
abbrev S100001x2 : Shape := ⟨2, ![100001, 2]⟩

abbrev nBuf : Space → Nat
  | .hbm => 99
  | .vmem => 12
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S3200000, .f32⟩
  | .hbm, ⟨3, _⟩ => ⟨S3200000x2, .f32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S100000x1, .f32⟩
  | .hbm, ⟨9, _⟩ => ⟨S100000, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000, .f32⟩
  | .hbm, ⟨24, _⟩ => ⟨S3200000x1, .f32⟩
  | .hbm, ⟨25, _⟩ => ⟨S3200000, .f32⟩
  | .hbm, ⟨26, _⟩ => ⟨S3200000x1, .f32⟩
  | .hbm, ⟨27, _⟩ => ⟨S3200000, .f32⟩
  | .hbm, ⟨28, _⟩ => ⟨S25000x128, .f32⟩
  | .hbm, ⟨29, _⟩ => ⟨S25000x128, .f32⟩
  | .hbm, ⟨30, _⟩ => ⟨S25000x128, .f32⟩
  | .hbm, ⟨31, _⟩ => ⟨S25000x128, .f32⟩
  | .hbm, ⟨32, _⟩ => ⟨S25000x128, .f32⟩
  | .hbm, ⟨33, _⟩ => ⟨S25000x128, .f32⟩
  | .hbm, ⟨34, _⟩ => ⟨S3200000, .f32⟩
  | .hbm, ⟨35, _⟩ => ⟨S3200000, .f32⟩
  | .hbm, ⟨36, _⟩ => ⟨S3200000, .i1⟩
  | .hbm, ⟨37, _⟩ => ⟨S_, .i32⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000x1, .f32⟩
  | .hbm, ⟨42, _⟩ => ⟨S3200000x1, .f32⟩
  | .hbm, ⟨43, _⟩ => ⟨S3200000x2, .f32⟩
  | .hbm, ⟨44, _⟩ => ⟨S_, .f32⟩
  | .hbm, ⟨45, _⟩ => ⟨S100000x2, .f32⟩
  | .hbm, ⟨46, _⟩ => ⟨S3200000x1, .i32⟩
  | .hbm, ⟨47, _⟩ => ⟨S100000x2, .f32⟩
  | .hbm, ⟨48, _⟩ => ⟨S_, .f32⟩
  | .hbm, ⟨49, _⟩ => ⟨S100001x2, .f32⟩
  | .hbm, ⟨50, _⟩ => ⟨S3200000x1, .i32⟩
  | .hbm, ⟨51, _⟩ => ⟨S100001x2, .f32⟩
  | .hbm, ⟨52, _⟩ => ⟨S100000x2, .f32⟩
  | .hbm, ⟨53, _⟩ => ⟨S100000x2, .f32⟩
  | .hbm, ⟨54, _⟩ => ⟨S100000x1, .f32⟩
  | .hbm, ⟨55, _⟩ => ⟨S100000, .f32⟩
  | .hbm, ⟨56, _⟩ => ⟨S100000x1, .f32⟩
  | .hbm, ⟨57, _⟩ => ⟨S100000, .f32⟩
  | .hbm, ⟨58, _⟩ => ⟨S100000x1, .f32⟩
  | .hbm, ⟨59, _⟩ => ⟨S100000, .f32⟩
  | .hbm, ⟨60, _⟩ => ⟨S100000x1, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S100000x1, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000, .f32⟩
  | .hbm, ⟨92, _⟩ => ⟨S100000, .f32⟩
  | .hbm, ⟨93, _⟩ => ⟨S100000, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_cst_4 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_call1_cst : Ref sig .tc := ⟨.hbm, 82, rfl⟩
abbrev main_call1_v0 : Ref sig .tc := ⟨.hbm, 83, rfl⟩
abbrev main_v67 : Ref sig .tc := ⟨.hbm, 84, rfl⟩
abbrev main_cst_6 : Ref sig .tc := ⟨.hbm, 85, rfl⟩
abbrev main_v68 : Ref sig .tc := ⟨.hbm, 86, rfl⟩
abbrev main_v69 : Ref sig .tc := ⟨.hbm, 87, rfl⟩
abbrev main_call2_cst : Ref sig .tc := ⟨.hbm, 88, rfl⟩
abbrev main_call2_v0 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S100000x4_S100000x1_0_0 : S100000x4.Slices ![0, 0] S100000x1
  shapeCasts_S100000x1_S100000 : S100000x1.ShapeCasts S100000
  slices_S100000x4_S100000x1_0_1 : S100000x4.Slices ![0, 1] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  shapeCasts_S3200000_S25000x128 : S3200000.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S3200000 : S25000x128.ShapeCasts S3200000
  concatenates_S3200000x1_S3200000x1_S3200000x2_d1 : Shape.Concatenates [S3200000x1, S3200000x1] S3200000x2 1
  bcast_S_S100000x2 : S_.BroadcastsInDim S100000x2 (![] : Fin 0 → Fin S100000x2.rank)
  bcast_S_S100001x2 : S_.BroadcastsInDim S100001x2 (![] : Fin 0 → Fin S100001x2.rank)
  slices_S100001x2_S100000x2_0_0 : S100001x2.Slices ![0, 0] S100000x2
  slices_S100000x2_S100000x1_0_0 : S100000x2.Slices ![0, 0] S100000x1
  slices_S100000x2_S100000x1_0_1 : S100000x2.Slices ![0, 1] S100000x1
  slices_S100000x4_S100000x1_0_2 : S100000x4.Slices ![0, 2] S100000x1
  slices_S100000x4_S100000x1_0_3 : S100000x4.Slices ![0, 3] S100000x1
  reducesTo_S100000_S_d0 : S100000.ReducesTo [0] S_
  h_S_ : 0 < S_.numel
  bcast_S_S100000 : S_.BroadcastsInDim S100000 (![] : Fin 0 → Fin S100000.rank)
  gather_S100000_S3200000x1_S3200000_n_0_n_n_0_1_1_wf : GatherDims.WF S100000 S3200000x1 S3200000 [] [0] [] [0] [] 1 ![1]
  scatter_S100000x2_S3200000x1_S3200000x2_1_0_0_1_wf : ScatterDims.WF S100000x2 S3200000x1 S3200000x2 [1] [0] [0] 1
  scatter_S100001x2_S3200000x1_S3200000x2_1_0_0_1_wf : ScatterDims.WF S100001x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S25000x128.size a
  hwx0_4 : ∀ i : grid0.Coords, EltTy.bits .f32 = 32 ∨ (Rect.block (s := S25000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100001x2_S3200000x1_S3200000x2_1_0_0_1 : ScatterDims S100001x2 S3200000x1 S3200000x2 where
  updateWindowDims := [1]
  insertedWindowDims := [0]
  scatterDimsToOperandDims := [0]
  indexVectorDim := 1
  wf := scatter_S100001x2_S3200000x1_S3200000x2_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S3200000 : Shape := ⟨1, ![3200000]⟩
abbrev S3200000x2 : Shape := ⟨2, ![3200000, 2]⟩
abbrev S1x3200000 : Shape := ⟨2, ![1, 3200000]⟩
abbrev S_ : Shape := ⟨0, ![]⟩
abbrev S3200000x1 : Shape := ⟨2, ![3200000, 1]⟩
abbrev S100000 : Shape := ⟨1, ![100000]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S3200000, .f32⟩
  | .hbm, ⟨3, _⟩ => ⟨S3200000x2, .f32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x1, .i32⟩
  | .hbm, ⟨20, _⟩ => ⟨S3200000x2, .i32⟩
  | .hbm, ⟨21, _⟩ => ⟨S3200000, .f32⟩
  | .hbm, ⟨22, _⟩ => ⟨S3200000, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x1, .i32⟩
  | .hbm, ⟨35, _⟩ => ⟨S3200000x2, .i32⟩
  | .hbm, ⟨36, _⟩ => ⟨S3200000, .f32⟩
  | .hbm, ⟨37, _⟩ => ⟨S3200000, .f32⟩
  | .hbm, ⟨38, _⟩ => ⟨S3200000, .f32⟩
  | .hbm, ⟨39, _⟩ => ⟨S3200000, .f32⟩
  | .hbm, ⟨40, _⟩ => ⟨S3200000, .f32⟩
  | .hbm, ⟨41, _⟩ => ⟨S3200000x1, .f32⟩
  | .hbm, ⟨42, _⟩ => ⟨S3200000, .f32⟩
  | .hbm, ⟨43, _⟩ => ⟨S_, .f32⟩
  | .hbm, ⟨44, _⟩ => ⟨S3200000, .f32⟩
  | .hbm, ⟨45, _⟩ => ⟨S3200000, .f32⟩
  | .hbm, ⟨46, _⟩ => ⟨S3200000, .f32⟩
  | .hbm, ⟨47, _⟩ => ⟨S3200000, .f32⟩
  | .hbm, ⟨48, _⟩ => ⟨S3200000x1, .f32⟩
  | .hbm, ⟨49, _⟩ => ⟨S3200000, .f32⟩
  | .hbm, ⟨50, _⟩ => ⟨S_, .f32⟩
  | .hbm, ⟨51, _⟩ => ⟨S3200000, .f32⟩
  | .hbm, ⟨52, _⟩ => ⟨S3200000, .f32⟩
  | .hbm, ⟨53, _⟩ => ⟨S3200000, .f32⟩
  | .hbm, ⟨54, _⟩ => ⟨S3200000, .f32⟩
  | .hbm, ⟨55, _⟩ => ⟨S3200000, .i1⟩
  | .hbm, ⟨56, _⟩ => ⟨S_, .f32⟩
  | .hbm, ⟨57, _⟩ => ⟨S_, .f32⟩
  | .hbm, ⟨58, _⟩ => ⟨S3200000, .f32⟩
  | .hbm, ⟨59, _⟩ => ⟨S3200000, .f32⟩
  | .hbm, ⟨60, _⟩ => ⟨S_, .f32⟩
  | .hbm, ⟨61, _⟩ => ⟨S_, .f32⟩
  | .hbm, ⟨62, _⟩ => ⟨S3200000, .f32⟩
  | .hbm, ⟨63, _⟩ => ⟨S3200000, .f32⟩
  | .hbm, ⟨64, _⟩ => ⟨S_, .f32⟩
  | .hbm, ⟨65, _⟩ => ⟨S100000, .f32⟩
  | .hbm, ⟨66, _⟩ => ⟨S3200000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S3200000x1, .i32⟩
  | .hbm, ⟨71, _⟩ => ⟨S100000, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S3200000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S3200000x1, .i32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000, .f32⟩
  | .hbm, ⟨84, _⟩ => ⟨S100000x1, .f32⟩
  | .hbm, ⟨85, _⟩ => ⟨S100000, .f32⟩
  | .hbm, ⟨86, _⟩ => ⟨S100000, .f32⟩
  | .hbm, ⟨87, _⟩ => ⟨S100000, .f32⟩
  | .hbm, ⟨88, _⟩ => ⟨S100000, .f32⟩
  | .hbm, ⟨89, _⟩ => ⟨S100000, .f32⟩
  | .hbm, ⟨90, _⟩ => ⟨S100000, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S100000x1, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000, .f32⟩
  | .hbm, ⟨100, _⟩ => ⟨S100000, .f32⟩
  | .hbm, ⟨101, _⟩ => ⟨S100000, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S_, .f32⟩
  | .hbm, ⟨110, _⟩ => ⟨S100000, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000, .f32⟩
  | .hbm, ⟨116, _⟩ => ⟨S100000, .f32⟩
  | .hbm, ⟨117, _⟩ => ⟨S100000, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_v44 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_call2_cst : Ref sig .tc := ⟨.hbm, 106, rfl⟩
abbrev main_call2_v0 : Ref sig .tc := ⟨.hbm, 107, rfl⟩
abbrev main_v81 : Ref sig .tc := ⟨.hbm, 108, rfl⟩
abbrev main_cst_15 : Ref sig .tc := ⟨.hbm, 109, rfl⟩
abbrev main_v82 : Ref sig .tc := ⟨.hbm, 110, rfl⟩
abbrev main_v83 : Ref sig .tc := ⟨.hbm, 111, rfl⟩
abbrev main_call3_cst : Ref sig .tc := ⟨.hbm, 112, rfl⟩
abbrev main_call3_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_16 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x1_S3200000x1_S3200000x2_d1 : Shape.Concatenates [S3200000x1, S3200000x1] S3200000x2 1
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  bcast_S_S100000 : S_.BroadcastsInDim S100000 (![] : Fin 0 → Fin S100000.rank)
  slices_S100000x4_S100000x1_0_2 : S100000x4.Slices ![0, 2] S100000x1
  shapeCasts_S100000x1_S100000 : S100000x1.ShapeCasts S100000
  slices_S100000x4_S100000x1_0_3 : S100000x4.Slices ![0, 3] S100000x1
  reducesTo_S100000_S_d0 : S100000.ReducesTo [0] S_
  h_S_ : 0 < S_.numel
  slices_S100000x4_S100000x1_0_0 : S100000x4.Slices ![0, 0] S100000x1
  slices_S100000x4_S100000x1_0_1 : S100000x4.Slices ![0, 1] S100000x1
  gather_S100000x4_S3200000x2_S3200000_n_01_n_n_01_1_11_wf : GatherDims.WF S100000x4 S3200000x2 S3200000 [] [0, 1] [] [0, 1] [] 1 ![1, 1]
  scatter_S100000_S3200000x1_S3200000_n_0_0_1_wf : ScatterDims.WF S100000 S3200000x1 S3200000 [] [0] [0] 1

variable [Facts₀]

def gather_S100000x4_S3200000x2_S3200000_n_01_n_n_01_1_11 : GatherDims S100000x4 S3200000x2 S3200000 where
  offsetDims := []
  collapsedSliceDims := [0, 1]
  operandBatchingDims := []
  startIndicesBatchingDims := []
  startIndexMap := [0, 1]
  indexVectorDim := 1
  sliceSizes := ![1, 1]
  wf := gather_S100000x4_S3200000x2_S3200000_n_01_n_n_01_1_11_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.FrameBitsDefs.lean ====
/- The frame run of the program, first part: the definitions the run and every later statement are written over.

   A BLOCK of a window at a grid point is the [5000,128] sub-array the window's index map selects there, read off
   the window's array as the region finds it. The body reads the four input blocks x0 … x3 whole and fills each
   output block with one whole-block store:  x0·x1 / (x2 + ε)  into window 4 and  x0·x1 / (x3 + ε)  into window 5
   (ε the printed constant), as the skeleton's payloads `k0_pay2`, `k0_pay3` spell them. -/
import proofs.«122857_j38010460570139_2_alg».proof.Proof.Gen.Kernel.Launch
import proofs.«122857_j38010460570139_2_alg».proof.Proof.Gen.Kernel.Skeleton
import proofs.«122857_j38010460570139_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered, as a valuation: the launch contents after the host
    operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output block -/

/-- The whole block as a rectangle: offsets zero, the block's extents, unit strides. Every access of the body is through it. -/
abbrev r0_0 : Rect S5000x128 := Rect.unit (s := S5000x128) ![0, 0] S5000x128.size inb_S5000x128_S5000x128_0_0

/-- Window 4's block after the body, from the four input blocks: its one whole-block store,
    x0·x1 / (x2 + ε) elementwise. -/
def out0_4 (x0 : Vec F S5000x128 .f32) (x1 : Vec F S5000x128 .f32) (x2 : Vec F S5000x128 .f32) (x3 : Vec F S5000x128 .f32) : Vec F S5000x128 .f32 :=
  View.canon [⟨r0_0, k0_pay2 (View.ld x0 r0_0) (View.ld x1 r0_0) (View.ld x2 r0_0)⟩]

/-- Window 5's block after the body, from the four input blocks: its one whole-block store,
    x0·x1 / (x3 + ε) elementwise. -/
def out0_5 (x0 : Vec F S5000x128 .f32) (x1 : Vec F S5000x128 .f32) (x2 : Vec F S5000x128 .f32) (x3 : Vec F S5000x128 .f32) : Vec F S5000x128 .f32 :=
  View.canon [⟨r0_0, k0_pay3 (View.ld x0 r0_0) (View.ld x1 r0_0) (View.ld x3 r0_0)⟩]

/-! ## The pipeline's proof data -/

/-- The proof data of the one pipeline on core `c`: the arrays as the region finds them; after the body at point `t`
    each input's buffer still at its block and each output's at `out0_W` of the four input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

/-- The proof data's arrays are the region-entry contents (by projection: the fold over the host operations before
    the region is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

end Cert.Kernel.Hand

end
-- ==== Proof.FrameBits.lean ====
/- The frame run of the program: @main is host operations, ONE pipelined region, host operations.

   The region walks a grid of five points. At each point the pipeline hands the body the current [5000,128] BLOCK of
   each of four input arrays and of two output arrays; the body reads the four input blocks x0 … x3 whole and fills
   each output block with one whole-block store — x0·x1 / (x2 + ε) and x0·x1 / (x3 + ε) —, so what an output block
   holds after the body is a closed function of the four input blocks (`out0_4`, `out0_5`), whatever it held before.
   The blocks tile the arrays, so after the region each output array holds, block by block, that function of the
   input arrays as the region found them.

   The sixty-five host operations after the region each write one buffer of their own — never an array of the
   pipeline, never an argument of @main — and allocate nothing; so they run from the region's exit contents, and the
   four argument arrays end as they were launched. -/
import proofs.«122857_j38010460570139_2_alg».proof.Proof.FrameBitsDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer: each list, operation by operation. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host operations before the region, the region, and the seven stretches of host operations after it:
    it reduces to the region CONTINUED BY the later stretches, from the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2, hostOps1_3, hostOps1_4, hostOps1_5, hostOps1_6] : List (List (HloOp τ sig (Elt F)))).map StableHlo.seq)) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- The operations after the region touch unscoped TensorCore buffers only; with nothing prefetched every such buffer is
    an array of the pipeline or a buffer that bypasses it. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each operation after the region writes only its own result buffer, which is none of the six arrays of the
    pipeline: stretch by stretch, operation by operation, window by window. -/
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_5_keeps : (hostOps1_5 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_6_keeps : (hostOps1_6 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- So no operation after the region writes an array of the pipeline. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- No host operation, before the region or after it, writes an argument array of @main: each writes only its own
    result buffer. Stretch by stretch. -/
theorem hostOps0_args : (hostOps0 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_args : (hostOps1 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_args : (hostOps1_1 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_args : (hostOps1_2 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_args : (hostOps1_3 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_args : (hostOps1_4 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_args : (hostOps1_5 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_args : (hostOps1_6 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem sfx_args : ∀ ops ∈ ([hostOps1, hostOps1_1, hostOps1_2, hostOps1_3, hostOps1_4, hostOps1_5, hostOps1_6] : List (List (HloOp τ sig (Elt F)))), ∀ op ∈ ops, Proc.devRef .tc main_arg0 ∉ op.writes ∧ Proc.devRef .tc main_arg1 ∉ op.writes ∧ Proc.devRef .tc main_arg2 ∉ op.writes ∧ Proc.devRef .tc main_arg3 ∉ op.writes := by
  intro ops hops op hop
  simp only [List.mem_cons, List.mem_nil_iff, or_false] at hops
  rcases hops with rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop

/-- So the region finds each argument array as launched, -/
theorem V_main_arg0 (c : Dev nD) : V m c main_arg0 = m ((c : Thread nD τ).loc main_arg0) :=
  StableHlo.after_of_forall_not_mem (b := Proc.devRef .tc main_arg0) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').1)
theorem V_main_arg1 (c : Dev nD) : V m c main_arg1 = m ((c : Thread nD τ).loc main_arg1) :=
  StableHlo.after_of_forall_not_mem (b := Proc.devRef .tc main_arg1) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').2.1)
theorem V_main_arg2 (c : Dev nD) : V m c main_arg2 = m ((c : Thread nD τ).loc main_arg2) :=
  StableHlo.after_of_forall_not_mem (b := Proc.devRef .tc main_arg2) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').2.2.1)
theorem V_main_arg3 (c : Dev nD) : V m c main_arg3 = m ((c : Thread nD τ).loc main_arg3) :=
  StableHlo.after_of_forall_not_mem (b := Proc.devRef .tc main_arg3) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').2.2.2)

/-- and, no array of the pipeline being an argument array, each ends as launched after the later operations. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (sfx_args ops hops op hop').1),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (fun op hop => by
      obtain ⟨ops, hops, hop'⟩ := List.mem_flatten.mp hop
      exact (sfx_args ops hops op hop').2.1),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact (sfx_args ops hops op hop').2.2.1),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (fun op hop => by
      obtain ⟨ops, hops, hop'⟩ := List.mem_flatten.mp hop
      exact (sfx_args ops hops op hop').2.2.2),
    Pipeline.withArrays_of_ne _ c (V0 m c) _ main_arg3 (by exact (by decide : ∀ w, Pipeline.arrRef spec0 w ≠ main_arg3))]
  exact V_main_arg3 m c

/-! ## The input windows' blocks -/

/-- An input window's current staging buffer holds the window's block at every point, fetched there or not, for ANY
    proof data whose array is the region-entry contents (`hA`) and whose body leaves the block in place (`hafter`):
    unfetched, the block index has not moved since the point before. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run ending with every unscoped buffer outside the pipeline's arrays as the later operations
    leave it ends with the four argument arrays as launched: none is an array of the pipeline, none is written. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body's triple -/

/-- The one store into an output block is through the whole block, so it covers it. -/
theorem cover0_4 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body on whole staging buffers, the inputs' holding `x0 … x3` and the outputs' anything, runs to the
    continuation with the inputs' as they were and the outputs' at `out0_4`, `out0_5` of the inputs: it loads the four
    inputs, loads each output buffer (a value it never uses) and overwrites it whole. -/
theorem sound_kernel (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole) (arg6 : Memref sig .tc .vmem S5000x128 .f32) (harg6 : arg6.IsWhole)
    (x0 x1 x2 x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__edge_kernel i arg1 harg1 arg2 harg2 arg3 harg3 arg4 harg4 arg5 harg5 arg6 harg6) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The body obligation, at a generic point -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data compute — an
    output array, block by block, at `out0_W` of the input blocks — and every other unscoped buffer as the operations after
    the region leave it from those contents. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME, at any `F`: @main runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameIdealDefs.lean ====
/- The frame run of the program, first part: the definitions the run and every later statement are written over.

   A BLOCK of a window at a grid point is the [5000,128] sub-array the window's index map selects there, read off
   the window's array as the region finds it. The body reads the four input blocks x0 … x3 whole and fills each
   output block with one whole-block store:  x0·x1 / (x2 + ε)  into window 4 and  x0·x1 / (x3 + ε)  into window 5
   (ε the printed constant), as the skeleton's payloads `k0_pay2`, `k0_pay3` spell them. -/
import proofs.«122857_j38010460570139_2_alg».proof.Proof.Gen.KernelIdeal.Launch
import proofs.«122857_j38010460570139_2_alg».proof.Proof.Gen.KernelIdeal.Skeleton
import proofs.«122857_j38010460570139_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered, as a valuation: the launch contents after the host
    operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output block -/

/-- The whole block as a rectangle: offsets zero, the block's extents, unit strides. Every access of the body is through it. -/
abbrev r0_0 : Rect S5000x128 := Rect.unit (s := S5000x128) ![0, 0] S5000x128.size inb_S5000x128_S5000x128_0_0

/-- Window 4's block after the body, from the four input blocks: its one whole-block store,
    x0·x1 / (x2 + ε) elementwise. -/
def out0_4 (x0 : Vec F S5000x128 .f32) (x1 : Vec F S5000x128 .f32) (x2 : Vec F S5000x128 .f32) (x3 : Vec F S5000x128 .f32) : Vec F S5000x128 .f32 :=
  View.canon [⟨r0_0, k0_pay2 (View.ld x0 r0_0) (View.ld x1 r0_0) (View.ld x2 r0_0)⟩]

/-- Window 5's block after the body, from the four input blocks: its one whole-block store,
    x0·x1 / (x3 + ε) elementwise. -/
def out0_5 (x0 : Vec F S5000x128 .f32) (x1 : Vec F S5000x128 .f32) (x2 : Vec F S5000x128 .f32) (x3 : Vec F S5000x128 .f32) : Vec F S5000x128 .f32 :=
  View.canon [⟨r0_0, k0_pay3 (View.ld x0 r0_0) (View.ld x1 r0_0) (View.ld x3 r0_0)⟩]

/-! ## The pipeline's proof data -/

/-- The proof data of the one pipeline on core `c`: the arrays as the region finds them; after the body at point `t`
    each input's buffer still at its block and each output's at `out0_W` of the four input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

/-- The proof data's arrays are the region-entry contents (by projection: the fold over the host operations before
    the region is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

end Cert.KernelIdeal.Hand

end
-- ==== Proof.FrameIdeal.lean ====
/- The frame run of the program: @main is host operations, ONE pipelined region, host operations.

   The region walks a grid of five points. At each point the pipeline hands the body the current [5000,128] BLOCK of
   each of four input arrays and of two output arrays; the body reads the four input blocks x0 … x3 whole and fills
   each output block with one whole-block store — x0·x1 / (x2 + ε) and x0·x1 / (x3 + ε) —, so what an output block
   holds after the body is a closed function of the four input blocks (`out0_4`, `out0_5`), whatever it held before.
   The blocks tile the arrays, so after the region each output array holds, block by block, that function of the
   input arrays as the region found them.

   The sixty-five host operations after the region each write one buffer of their own — never an array of the
   pipeline, never an argument of @main — and allocate nothing; so they run from the region's exit contents, and the
   four argument arrays end as they were launched. -/
import proofs.«122857_j38010460570139_2_alg».proof.Proof.FrameIdealDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer: each list, operation by operation. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host operations before the region, the region, and the seven stretches of host operations after it:
    it reduces to the region CONTINUED BY the later stretches, from the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2, hostOps1_3, hostOps1_4, hostOps1_5, hostOps1_6] : List (List (HloOp τ sig (Elt F)))).map StableHlo.seq)) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- The operations after the region touch unscoped TensorCore buffers only; with nothing prefetched every such buffer is
    an array of the pipeline or a buffer that bypasses it. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each operation after the region writes only its own result buffer, which is none of the six arrays of the
    pipeline: stretch by stretch, operation by operation, window by window. -/
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_5_keeps : (hostOps1_5 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_6_keeps : (hostOps1_6 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- So no operation after the region writes an array of the pipeline. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- No host operation, before the region or after it, writes an argument array of @main: each writes only its own
    result buffer. Stretch by stretch. -/
theorem hostOps0_args : (hostOps0 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_args : (hostOps1 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_args : (hostOps1_1 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_args : (hostOps1_2 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_args : (hostOps1_3 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_args : (hostOps1_4 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_args : (hostOps1_5 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_args : (hostOps1_6 : List (HloOp τ sig (Elt F))).Forall fun op => Proc.devRef .tc main_arg0 ∉ op.writes ∧ Proc.devRef .tc main_arg1 ∉ op.writes ∧ Proc.devRef .tc main_arg2 ∉ op.writes ∧ Proc.devRef .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem sfx_args : ∀ ops ∈ ([hostOps1, hostOps1_1, hostOps1_2, hostOps1_3, hostOps1_4, hostOps1_5, hostOps1_6] : List (List (HloOp τ sig (Elt F)))), ∀ op ∈ ops, Proc.devRef .tc main_arg0 ∉ op.writes ∧ Proc.devRef .tc main_arg1 ∉ op.writes ∧ Proc.devRef .tc main_arg2 ∉ op.writes ∧ Proc.devRef .tc main_arg3 ∉ op.writes := by
  intro ops hops op hop
  simp only [List.mem_cons, List.mem_nil_iff, or_false] at hops
  rcases hops with rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop

/-- So the region finds each argument array as launched, -/
theorem V_main_arg0 (c : Dev nD) : V m c main_arg0 = m ((c : Thread nD τ).loc main_arg0) :=
  StableHlo.after_of_forall_not_mem (b := Proc.devRef .tc main_arg0) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').1)
theorem V_main_arg1 (c : Dev nD) : V m c main_arg1 = m ((c : Thread nD τ).loc main_arg1) :=
  StableHlo.after_of_forall_not_mem (b := Proc.devRef .tc main_arg1) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').2.1)
theorem V_main_arg2 (c : Dev nD) : V m c main_arg2 = m ((c : Thread nD τ).loc main_arg2) :=
  StableHlo.after_of_forall_not_mem (b := Proc.devRef .tc main_arg2) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').2.2.1)
theorem V_main_arg3 (c : Dev nD) : V m c main_arg3 = m ((c : Thread nD τ).loc main_arg3) :=
  StableHlo.after_of_forall_not_mem (b := Proc.devRef .tc main_arg3) _ _ (fun op hop => by
    obtain ⟨ops, hops, hop'⟩ := List.mem_flatten.mp hop
    simp only [List.mem_cons, List.mem_nil_iff, or_false] at hops
    rcases hops with rfl
    exact ((List.forall_iff_forall_mem.mp hostOps0_args) op hop').2.2.2)

/-- and, no array of the pipeline being an argument array, each ends as launched after the later operations. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (sfx_args ops hops op hop').1),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (fun op hop => by
      obtain ⟨ops, hops, hop'⟩ := List.mem_flatten.mp hop
      exact (sfx_args ops hops op hop').2.1),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact (sfx_args ops hops op hop').2.2.1),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (fun op hop => by
      obtain ⟨ops, hops, hop'⟩ := List.mem_flatten.mp hop
      exact (sfx_args ops hops op hop').2.2.2),
    Pipeline.withArrays_of_ne _ c (V0 m c) _ main_arg3 (by exact (by decide : ∀ w, Pipeline.arrRef spec0 w ≠ main_arg3))]
  exact V_main_arg3 m c

/-! ## The input windows' blocks -/

/-- An input window's current staging buffer holds the window's block at every point, fetched there or not, for ANY
    proof data whose array is the region-entry contents (`hA`) and whose body leaves the block in place (`hafter`):
    unfetched, the block index has not moved since the point before. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run ending with every unscoped buffer outside the pipeline's arrays as the later operations
    leave it ends with the four argument arrays as launched: none is an array of the pipeline, none is written. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body's triple -/

/-- The one store into an output block is through the whole block, so it covers it. -/
theorem cover0_4 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body on whole staging buffers, the inputs' holding `x0 … x3` and the outputs' anything, runs to the
    continuation with the inputs' as they were and the outputs' at `out0_4`, `out0_5` of the inputs: it loads the four
    inputs, loads each output buffer (a value it never uses) and overwrites it whole. -/
theorem sound_kernel (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole) (arg6 : Memref sig .tc .vmem S5000x128 .f32) (harg6 : arg6.IsWhole)
    (x0 x1 x2 x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__edge_kernel i arg1 harg1 arg2 harg2 arg3 harg3 arg4 harg4 arg5 harg5 arg6 harg6) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The body obligation, at a generic point -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data compute — an
    output array, block by block, at `out0_W` of the input blocks — and every other unscoped buffer as the operations after
    the region leave it from those contents. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME, at any `F`: @main runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Loss.lean ====
/-
  THE LOSS FROM THE NODE FLOWS, and the reference's edge and node flows, as named functions of the four argument arrays.

  Both programs finish the same way: from the node features a (100000 × 4) and the active and reactive power flowing
  into each node, p and q, the result is

      mean_n ((a[n,2] + p n)² + (a[n,3] + q n)²)  +  mean_n (relu(0.95 − |v_n|)² + relu(|v_n| − 1.05)²),   |v_n| = √(a[n,0]² + a[n,1]²),

  each mean a sum from zero divided by 100000. `loss` is that function, written once over the host operations; the two
  programs differ only in how they reach p and q, so an equation between their results is an equation between node flows
  under `loss`, which is never opened.

  The reference reaches them edge by edge: with s and d an edge's endpoints, g the source read as a row number (a negative
  one counted from the end), x = a[g,0]² + a[g,1]² the source's squared voltage, its flow is (√x·√x / (e + ε))·prob for
  e the edge's own parameter, and a node's flow is the sum of the flows of the edges leaving it plus the sum, over the
  edges entering it, of the flow or of 0 on a self-loop (`nodeFlowR`).
-/
import proofs.«122857_j38010460570139_2_alg».proof.ReferenceIdeal
import proofs.«122857_j38010460570139_2_alg».proof.Proof.Gen.ReferenceIdeal

noncomputable section

namespace Cert.Loss

open Idealize.ShloMosaic Cert.ReferenceIdeal Cert.ReferenceIdeal.Facts₀

variable {F : FTy → Type} [FloatOps F]

/-- Column j of the node features, as a vector over the nodes (j = 0, 1, 2, 3 below). -/
def col0 (a0 : FVec F S100000x4 .f32) : FVec F S100000 .f32 :=
  shapeCast _ (extractStridedSlice S100000x1 ![0, 0] a0 slices_S100000x4_S100000x1_0_0) shapeCasts_S100000x1_S100000
def col1 (a0 : FVec F S100000x4 .f32) : FVec F S100000 .f32 :=
  shapeCast _ (extractStridedSlice S100000x1 ![0, 1] a0 slices_S100000x4_S100000x1_0_1) shapeCasts_S100000x1_S100000
def col2 (a0 : FVec F S100000x4 .f32) : FVec F S100000 .f32 :=
  shapeCast _ (extractStridedSlice S100000x1 ![0, 2] a0 slices_S100000x4_S100000x1_0_2) shapeCasts_S100000x1_S100000
def col3 (a0 : FVec F S100000x4 .f32) : FVec F S100000 .f32 :=
  shapeCast _ (extractStridedSlice S100000x1 ![0, 3] a0 slices_S100000x4_S100000x1_0_3) shapeCasts_S100000x1_S100000

/-- The voltage magnitude at every node. -/
def vmag (a0 : FVec F S100000x4 .f32) : FVec F S100000 .f32 :=
  Host.sqrt (addf (mulf (col0 a0) (col0 a0)) (mulf (col1 a0) (col1 a0)))

/-- A mean over the nodes: the sum from zero, divided by 100000. -/
def meanN (x : FVec F S100000 .f32) : FVec F S_ .f32 :=
  Host.divf (Host.reduceAdd x (constant S_ .f32 0x00000000#32) reducesTo_S100000_S_d0 h_S_) (constant S_ .f32 0x47C35000#32)

/-- THE LOSS from the node features and the node flows. -/
def loss (a0 : FVec F S100000x4 .f32) (p q : FVec F S100000 .f32) : FVec F S_ .f32 :=
  addf
    (meanN (addf (mulf (addf (col2 a0) p) (addf (col2 a0) p)) (mulf (addf (col3 a0) q) (addf (col3 a0) q))))
    (meanN (addf
      (mulf (maximumf (subf (broadcastInDim S100000 ![] bcast_S_S100000 (constant S_ .f32 0x3F733333#32)) (vmag a0)) (broadcastInDim S100000 ![] bcast_S_S100000 (constant S_ .f32 0x00000000#32)))
            (maximumf (subf (broadcastInDim S100000 ![] bcast_S_S100000 (constant S_ .f32 0x3F733333#32)) (vmag a0)) (broadcastInDim S100000 ![] bcast_S_S100000 (constant S_ .f32 0x00000000#32))))
      (mulf (maximumf (subf (vmag a0) (broadcastInDim S100000 ![] bcast_S_S100000 (constant S_ .f32 0x3F866666#32))) (broadcastInDim S100000 ![] bcast_S_S100000 (constant S_ .f32 0x00000000#32)))
            (maximumf (subf (vmag a0) (broadcastInDim S100000 ![] bcast_S_S100000 (constant S_ .f32 0x3F866666#32))) (broadcastInDim S100000 ![] bcast_S_S100000 (constant S_ .f32 0x00000000#32))))))

/-! ## The edges' endpoints -/

/-- The source and the target of every edge. -/
def srcV (a1 : IVec S2x3200000 32) : IVec S3200000 32 :=
  shapeCast _ (extractStridedSlice S1x3200000 ![0, 0] a1 slices_S2x3200000_S1x3200000_0_0) shapeCasts_S1x3200000_S3200000
def dstV (a1 : IVec S2x3200000 32) : IVec S3200000 32 :=
  shapeCast _ (extractStridedSlice S1x3200000 ![1, 0] a1 slices_S2x3200000_S1x3200000_1_0) shapeCasts_S1x3200000_S3200000

/-- The source as a row number: a negative one counted from the end. -/
def rowV (a1 : IVec S2x3200000 32) : IVec S3200000 32 :=
  select (cmpi .slt (srcV a1) (broadcastInDim S3200000 ![] bcast_S_S3200000 (constantI S_ 32 0#32)))
    (addi (srcV a1) (broadcastInDim S3200000 ![] bcast_S_S3200000 (constantI S_ 32 100000#32))) (srcV a1)

/-- Which edges are self-loops. -/
def selfLoop (a1 : IVec S2x3200000 32) : IVec S3200000 1 := cmpi .eq (srcV a1) (dstV a1)

/-- An endpoint vector as the one-column index array a gather or a scatter takes. -/
def asIndex (v : IVec S3200000 32) : IVec S3200000x1 32 := broadcastInDim S3200000x1 ![0] bcast_S3200000_S3200000x1_0 v

/-- Column j of the edge parameters, and the shift ε on every edge. -/
def par0 (a3 : FVec F S3200000x2 .f32) : FVec F S3200000 .f32 :=
  shapeCast _ (extractStridedSlice S3200000x1 ![0, 0] a3 slices_S3200000x2_S3200000x1_0_0) shapeCasts_S3200000x1_S3200000
def par1 (a3 : FVec F S3200000x2 .f32) : FVec F S3200000 .f32 :=
  shapeCast _ (extractStridedSlice S3200000x1 ![0, 1] a3 slices_S3200000x2_S3200000x1_0_1) shapeCasts_S3200000x1_S3200000
def epsV : FVec F S3200000 .f32 := broadcastInDim S3200000 ![] bcast_S_S3200000 (constant S_ .f32 0x358637BD#32)

/-! ## The reference's flows -/

/-- Feature `k` (as the word `k`) of every edge's source node. -/
def srcFeature (k : BitVec 32) (a0 : FVec F S100000x4 .f32) (a1 : IVec S2x3200000 32) : FVec F S3200000 .f32 :=
  Host.gather gather_S100000x4_S3200000x2_S3200000_n_01_n_n_01_1_11 a0
    (concatenate S3200000x2 1 [⟨S3200000x1, asIndex (rowV a1)⟩,
      ⟨S3200000x1, asIndex (id (broadcastInDim S3200000 ![] bcast_S_S3200000 (constantI S_ 32 k)))⟩] concatenates_S3200000x1_S3200000x1_S3200000x2_d1)

/-- √x · √x for x the source's squared voltage, on every edge. -/
def srcV2R (a0 : FVec F S100000x4 .f32) (a1 : IVec S2x3200000 32) : FVec F S3200000 .f32 :=
  mulf (Host.sqrt (addf (mulf (srcFeature 0#32 a0 a1) (srcFeature 0#32 a0 a1)) (mulf (srcFeature 1#32 a0 a1) (srcFeature 1#32 a0 a1))))
       (Host.sqrt (addf (mulf (srcFeature 0#32 a0 a1) (srcFeature 0#32 a0 a1)) (mulf (srcFeature 1#32 a0 a1) (srcFeature 1#32 a0 a1))))

/-- The reference's flow on every edge, for the edge parameter `e`. -/
def edgeFlowR (a0 : FVec F S100000x4 .f32) (a1 : IVec S2x3200000 32) (a2 : FVec F S3200000 .f32) (e : FVec F S3200000 .f32) :
    FVec F S3200000 .f32 :=
  mulf (Host.divf (srcV2R a0 a1) (addf e epsV)) a2

/-- The reference's flow into every node from edge flows `f`: along the sources, plus along the targets off the
    self-loops. -/
def nodeFlowR (a1 : IVec S2x3200000 32) (f : FVec F S3200000 .f32) : FVec F S100000 .f32 :=
  addf
    (Host.scatterAdd scatter_S100000_S3200000x1_S3200000_n_0_0_1 (broadcastInDim S100000 ![] bcast_S_S100000 (constant S_ .f32 0x00000000#32))
      (asIndex (srcV a1)) f)
    (Host.scatterAdd scatter_S100000_S3200000x1_S3200000_n_0_0_1 (broadcastInDim S100000 ![] bcast_S_S100000 (constant S_ .f32 0x00000000#32))
      (asIndex (dstV a1)) (select (selfLoop a1) (broadcastInDim S3200000 ![] bcast_S_S3200000 (id (constant S_ .f32 0x00000000#32))) f))

/-- THE REFERENCE'S RESULT as a function of the four argument arrays. -/
def resultR (a0 : FVec F S100000x4 .f32) (a1 : IVec S2x3200000 32) (a2 : FVec F S3200000 .f32) (a3 : FVec F S3200000x2 .f32) :
    FVec F S_ .f32 :=
  loss a0 (nodeFlowR a1 (edgeFlowR a0 a1 a2 (par0 a3))) (nodeFlowR a1 (edgeFlowR a0 a1 a2 (par1 a3)))

end Cert.Loss

end
-- ==== Proof.KernelTerm.lean ====
/-
  THE KERNEL PROGRAM'S VALUES as named functions of the four argument arrays and of the two arrays the region writes.

  Before the region the host squares and adds the first two features of every node (`v2node`), looks that number up at
  every edge's source row (`v2src`: the source as a row number, a negative one counted from the end), takes the two
  columns of the edge parameters, and lays each of the four edge vectors out as a [25000, 128] tile (`tile`: edge
  e = 128·r + col sits at (r, col)). After the region, with P and Q the two tiles it wrote (the active and reactive flow of
  every edge), the host flattens them back to edge vectors, stacks them as the two columns of an [E, 2] array, and adds
  row e of that array into node `src e` of one [N, 2] accumulator and into node `dstEff e` of an [N + 1, 2] one, where
  `dstEff e` is the target, or the dummy row N on a self-loop; the first N rows of the second accumulator are added to
  the first, and the two columns of the sum are the node flows p and q that the loss takes.
-/
import proofs.«122857_j38010460570139_2_alg».proof.KernelIdeal
import proofs.«122857_j38010460570139_2_alg».proof.Proof.Gen.KernelIdeal
import proofs.«122857_j38010460570139_2_alg».proof.Proof.Loss

noncomputable section

namespace Cert.KernelTerm

open Idealize.ShloMosaic Cert.KernelIdeal Cert.KernelIdeal.Facts₀

variable {F : FTy → Type} [FloatOps F]

/-! ## Before the region -/

/-- The source and the target of every edge. -/
def srcK (a1 : IVec S2x3200000 32) : IVec S3200000 32 :=
  shapeCast _ (extractStridedSlice S1x3200000 ![0, 0] a1 slices_S2x3200000_S1x3200000_0_0) shapeCasts_S1x3200000_S3200000
def dstK (a1 : IVec S2x3200000 32) : IVec S3200000 32 :=
  shapeCast _ (extractStridedSlice S1x3200000 ![1, 0] a1 slices_S2x3200000_S1x3200000_1_0) shapeCasts_S1x3200000_S3200000

/-- The source as a row number: a negative one counted from the end. -/
def rowK (a1 : IVec S2x3200000 32) : IVec S3200000 32 :=
  select (cmpi .slt (srcK a1) (broadcastInDim S3200000 ![] bcast_S_S3200000 (constantI S_ 32 0#32)))
    (addi (srcK a1) (broadcastInDim S3200000 ![] bcast_S_S3200000 (constantI S_ 32 100000#32))) (srcK a1)

/-- An endpoint vector as the one-column index array a gather or a scatter takes. -/
def asIndexK (v : IVec S3200000 32) : IVec S3200000x1 32 := broadcastInDim S3200000x1 ![0] bcast_S3200000_S3200000x1_0 v

/-- The squared voltage magnitude at every node. -/
def v2node (a0 : FVec F S100000x4 .f32) : FVec F S100000 .f32 :=
  addf
    (mulf (shapeCast _ (extractStridedSlice S100000x1 ![0, 0] a0 slices_S100000x4_S100000x1_0_0) shapeCasts_S100000x1_S100000)
          (shapeCast _ (extractStridedSlice S100000x1 ![0, 0] a0 slices_S100000x4_S100000x1_0_0) shapeCasts_S100000x1_S100000))
    (mulf (shapeCast _ (extractStridedSlice S100000x1 ![0, 1] a0 slices_S100000x4_S100000x1_0_1) shapeCasts_S100000x1_S100000)
          (shapeCast _ (extractStridedSlice S100000x1 ![0, 1] a0 slices_S100000x4_S100000x1_0_1) shapeCasts_S100000x1_S100000))

/-- The squared voltage magnitude of every edge's source node. -/
def v2src (a0 : FVec F S100000x4 .f32) (a1 : IVec S2x3200000 32) : FVec F S3200000 .f32 :=
  Host.gather gather_S100000_S3200000x1_S3200000_n_0_n_n_0_1_1 (v2node a0) (asIndexK (rowK a1))

/-- Column j of the edge parameters. -/
def parK0 (a3 : FVec F S3200000x2 .f32) : FVec F S3200000 .f32 :=
  shapeCast _ (extractStridedSlice S3200000x1 ![0, 0] a3 slices_S3200000x2_S3200000x1_0_0) shapeCasts_S3200000x1_S3200000
def parK1 (a3 : FVec F S3200000x2 .f32) : FVec F S3200000 .f32 :=
  shapeCast _ (extractStridedSlice S3200000x1 ![0, 1] a3 slices_S3200000x2_S3200000x1_0_1) shapeCasts_S3200000x1_S3200000

/-- An edge vector laid out as a [25000, 128] tile, and a tile flattened back. -/
def tile {α : Type} (x : S3200000.Idx → α) : S25000x128.Idx → α := shapeCast _ x shapeCasts_S3200000_S25000x128
def untile {α : Type} (X : S25000x128.Idx → α) : S3200000.Idx → α := shapeCast _ X shapeCasts_S25000x128_S3200000

/-! ## After the region -/

/-- The target of every edge, or the dummy row 100000 on a self-loop. -/
def dstEff (a1 : IVec S2x3200000 32) : IVec S3200000 32 :=
  select (cmpi .eq (srcK a1) (dstK a1)) (broadcastInDim S3200000 ![] bcast_S_S3200000 (id (constantI S_ 32 100000#32))) (dstK a1)

/-- The two edge-flow tiles flattened and stacked as the columns of an [E, 2] array. -/
def stackPQ (P Q : FVec F S25000x128 .f32) : FVec F S3200000x2 .f32 :=
  concatenate S3200000x2 1
    [⟨S3200000x1, broadcastInDim S3200000x1 ![0] bcast_S3200000_S3200000x1_0 (untile P)⟩,
     ⟨S3200000x1, broadcastInDim S3200000x1 ![0] bcast_S3200000_S3200000x1_0 (untile Q)⟩]
    concatenates_S3200000x1_S3200000x1_S3200000x2_d1

/-- Both flows into every node: along the sources, plus along the remapped targets with the dummy row cut off. -/
def nodeFlow2 (a1 : IVec S2x3200000 32) (P Q : FVec F S25000x128 .f32) : FVec F S100000x2 .f32 :=
  addf
    (Host.scatterAdd scatter_S100000x2_S3200000x1_S3200000x2_1_0_0_1 (broadcastInDim S100000x2 ![] bcast_S_S100000x2 (constant S_ .f32 0x00000000#32))
      (asIndexK (srcK a1)) (stackPQ P Q))
    (extractStridedSlice S100000x2 ![0, 0]
      (Host.scatterAdd scatter_S100001x2_S3200000x1_S3200000x2_1_0_0_1 (broadcastInDim S100001x2 ![] bcast_S_S100001x2 (constant S_ .f32 0x00000000#32))
        (asIndexK (dstEff a1)) (stackPQ P Q))
      slices_S100001x2_S100000x2_0_0)

/-- The active and the reactive flow into every node. -/
def pK (a1 : IVec S2x3200000 32) (P Q : FVec F S25000x128 .f32) : FVec F S100000 .f32 :=
  shapeCast _ (extractStridedSlice S100000x1 ![0, 0] (nodeFlow2 a1 P Q) slices_S100000x2_S100000x1_0_0) shapeCasts_S100000x1_S100000
def qK (a1 : IVec S2x3200000 32) (P Q : FVec F S25000x128 .f32) : FVec F S100000 .f32 :=
  shapeCast _ (extractStridedSlice S100000x1 ![0, 1] (nodeFlow2 a1 P Q) slices_S100000x2_S100000x1_0_1) shapeCasts_S100000x1_S100000

/-- THE KERNEL PROGRAM'S RESULT from the node features, the edge endpoints and the two tiles the region wrote. -/
def resultK (a0 : FVec F S100000x4 .f32) (a1 : IVec S2x3200000 32) (P Q : FVec F S25000x128 .f32) : FVec F S_ .f32 :=
  Cert.Loss.loss a0 (pK a1 P Q) (qK a1 P Q)

end Cert.KernelTerm

end
-- ==== Proof.KernelRead.lean ====
/- The program's result read as one term.

   Before the region the host computes, from the four argument arrays, the four edge vectors the region reads — the
   squared voltage of every edge's source node, the edge probabilities, and the two columns of the edge parameters —
   and lays each out as a [25000, 128] tile; it also keeps the edges' sources and targets. After the region, with P and
   Q the two tiles the region wrote, the sixty-five remaining operations flatten the tiles, scatter them into the node
   flows and take the loss: the last buffer they write holds `resultK` of the node features, the edge endpoints, P and Q.
   Every step here is the definition of what one operation writes, read at the buffer it writes; nothing is evaluated. -/
import proofs.«122857_j38010460570139_2_alg».proof.Proof.FrameIdeal
import proofs.«122857_j38010460570139_2_alg».proof.Proof.KernelTerm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo (after_cons after_nil)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the region finds -/

/-- The edges' sources and targets, as the host cut them out of the endpoint array before the region. -/
theorem V_main_v1 (c : Dev nD) : V m c main_v1 = Cert.KernelTerm.srcK (m ((c : Thread nD τ).loc main_arg1)) := by
  show StableHlo.after hostOps0 (fun b => m (c, b)) (Proc.devRef .tc main_v1) = _
  after_results_simp
  rfl
theorem V_main_v3 (c : Dev nD) : V m c main_v3 = Cert.KernelTerm.dstK (m ((c : Thread nD τ).loc main_arg1)) := by
  show StableHlo.after hostOps0 (fun b => m (c, b)) (Proc.devRef .tc main_v3) = _
  after_results_simp
  rfl

/-- Window 0's array: the squared voltage of every edge's source node, as a tile. -/
theorem V_main_v22 (c : Dev nD) : V m c main_v22 = Cert.KernelTerm.tile (Cert.KernelTerm.v2src (m ((c : Thread nD τ).loc main_arg0)) (m ((c : Thread nD τ).loc main_arg1))) := by
  show StableHlo.after hostOps0 (fun b => m (c, b)) (Proc.devRef .tc main_v22) = _
  after_results_simp
  rfl
/-- Window 1's array: the edge probabilities, as a tile. -/
theorem V_main_v23 (c : Dev nD) : V m c main_v23 = Cert.KernelTerm.tile (m ((c : Thread nD τ).loc main_arg2)) := by
  show StableHlo.after hostOps0 (fun b => m (c, b)) (Proc.devRef .tc main_v23) = _
  after_results_simp
  rfl
/-- Windows 2 and 3's arrays: the two columns of the edge parameters, as tiles. -/
theorem V_main_v24 (c : Dev nD) : V m c main_v24 = Cert.KernelTerm.tile (Cert.KernelTerm.parK0 (m ((c : Thread nD τ).loc main_arg3))) := by
  show StableHlo.after hostOps0 (fun b => m (c, b)) (Proc.devRef .tc main_v24) = _
  after_results_simp
  rfl
theorem V_main_v25 (c : Dev nD) : V m c main_v25 = Cert.KernelTerm.tile (Cert.KernelTerm.parK1 (m ((c : Thread nD τ).loc main_arg3))) := by
  show StableHlo.after hostOps0 (fun b => m (c, b)) (Proc.devRef .tc main_v25) = _
  after_results_simp
  rfl

/-! ## The operations after the region, as one term -/

/-- Two edge columns side by side as an [E, 2] array: the one operation after the region that takes a LIST of operands,
    named so that each operand is read as an argument of a function. -/
def catCols (x y : (⟨S3200000x1, .f32⟩ : BufTy).Contents (Elt F)) : (⟨S3200000x2, .f32⟩ : BufTy).Contents (Elt F) :=
  concatenate S3200000x2 1 [⟨S3200000x1, x⟩, ⟨S3200000x1, y⟩] concatenates_S3200000x1_S3200000x1_S3200000x2_d1
theorem cat_eq : ((fun a b => concatenate S3200000x2 1 [⟨S3200000x1, a⟩, ⟨S3200000x1, b⟩] concatenates_S3200000x1_S3200000x1_S3200000x2_d1) : (⟨S3200000x1, .f32⟩ : BufTy).Contents (Elt F) → (⟨S3200000x1, .f32⟩ : BufTy).Contents (Elt F) → (⟨S3200000x2, .f32⟩ : BufTy).Contents (Elt F))
    = catCols := rfl

/-- From ANY contents `Wv` holding the node features `a0`, the sources and the targets of `a1`, and the tiles `P`, `Q` at
    the two arrays the region writes, the operations after the region leave `resultK a0 a1 P Q` in the result buffer. -/
theorem tail_term (Wv : Valuation τ sig (Elt F)) (a0 : FVec F S100000x4 .f32) (a1 : IVec S2x3200000 32) (P Q : FVec F S25000x128 .f32)
    (h0 : Wv (Proc.devRef .tc main_arg0) = a0)
    (h1 : Wv (Proc.devRef .tc main_v1) = Cert.KernelTerm.srcK a1)
    (h3 : Wv (Proc.devRef .tc main_v3) = Cert.KernelTerm.dstK a1)
    (hP : Wv (Proc.devRef .tc main_v26_0) = P) (hQ : Wv (Proc.devRef .tc main_v26_1) = Q) :
    StableHlo.after (List.flatten ([hostOps1, hostOps1_1, hostOps1_2, hostOps1_3, hostOps1_4, hostOps1_5, hostOps1_6] : List (List (HloOp τ sig (Elt F))))) Wv (Proc.devRef .tc main_v76)
      = Cert.KernelTerm.resultK a0 a1 P Q := by
  simp only [hostOps1, hostOps1_1, hostOps1_2, hostOps1_3, hostOps1_4, hostOps1_5, hostOps1_6, List.flatten_cons, List.flatten_nil, List.append_nil, List.cons_append, List.nil_append]
  simp only [cat_eq]
  after_results_simp
  rw [h0, h1, h3, hP, hQ]
  rfl

/-- THE RESULT after the whole of @main, from the frame run's contents: the region leaves its two output arrays at
    what the proof data compute, every other buffer as it found it. -/
theorem tail_result (c : Dev nD) :
    Pipeline.afterTail₀ cfgs (dats m) 0 (V0 m) [hostOps1, hostOps1_1, hostOps1_2, hostOps1_3, hostOps1_4, hostOps1_5, hostOps1_6] c main_v76
      = Cert.KernelTerm.resultK (m ((c : Thread nD τ).loc main_arg0)) (m ((c : Thread nD τ).loc main_arg1)) ((dats m 0 c).arrAt 4 cfg0.N) ((dats m 0 c).arrAt 5 cfg0.N) := by
  unfold Pipeline.afterTail₀
  exact tail_term _ _ _ _ _
    ((Pipeline.withArrays_of_ne _ c (V0 m c) _ main_arg0 (by exact (by decide : ∀ w, Pipeline.arrRef spec0 w ≠ main_arg0))).trans (V_main_arg0 m c))
    ((Pipeline.withArrays_of_ne _ c (V0 m c) _ main_v1 (by exact (by decide : ∀ w, Pipeline.arrRef spec0 w ≠ main_v1))).trans (V_main_v1 m c))
    ((Pipeline.withArrays_of_ne _ c (V0 m c) _ main_v3 (by exact (by decide : ∀ w, Pipeline.arrRef spec0 w ≠ main_v3))).trans (V_main_v3 m c))
    (Pipeline.withArrays_arr _ launch0.win.arr_inj c (V0 m c) _ 4)
    (Pipeline.withArrays_arr _ launch0.win.arr_inj c (V0 m c) _ 5)

/-! ## The run, read at the result -/

/-- Every weakly fair execution of @main terminates; the result buffer ends at `resultK` of the node features, the edge
    endpoints and the two arrays the region wrote, and the four argument arrays end as launched. -/
theorem run_result : θ_run defs (onTc (τ := τ) (main (F := F))) ⟨m, fun _ => 0, ρ⟩ (fun r => ∀ c : Dev nD,
      r.2.mem ((c.tc : Thread nD τ).loc main_v76)
        = Cert.KernelTerm.resultK (m ((c : Thread nD τ).loc main_arg0)) (m ((c : Thread nD τ).loc main_arg1)) ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v76 (Pipeline.mem_restRefs_of main_v76 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.KernelIdeal.Hand

end
-- ==== Proof.KernelBlocks.lean ====
/-
  FROM BLOCKS TO ARRAYS. The region has five points; at point t every window holds rows 5000·t … 5000·t + 4999 of its
  [25000, 128] array (one column block). The body computes, element by element, flow(v, p, e) = (v·p) / (e + ε) of the
  blocks it loaded — v the gathered squared voltages, p the edge probabilities, e one column of the edge parameters, ε the
  f32 word 0x358637BD — and stores it whole into the output's block. The five blocks tile the array, so after the run each
  output array IS flow of the three input arrays as the region found them, index by index.
-/
import proofs.«122857_j38010460570139_2_alg».proof.Proof.FrameIdealDefs
import proofs.«122857_j38010460570139_2_alg».proof.Proof.Gen.KernelIdeal.Points
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- The flow on every edge of a tile: (v·p) / (e + ε), element by element. -/
abbrev flow (a0 a1 a2 : S25000x128.Idx → Elt F .f32) : S25000x128.Idx → Elt F .f32 :=
  fun i => FloatOps.divf (FloatOps.mulf (a0 i) (a1 i)) (FloatOps.addf (a2 i) (Scalar.ofBits .f32 0x358637BD#32))

/-! ## Output window 4 -/

/-- The body's payload for this output is that pointwise tree of its loaded blocks (a cast to the same shape is the identity). -/
theorem pay4_eq (x0 x1 x2 : Vec F S5000x128 .f32) :
    k0_pay2 x0 x1 x2 = fun j => FloatOps.divf (FloatOps.mulf (x0 j) (x1 j)) (FloatOps.addf (x2 j) (Scalar.ofBits .f32 0x358637BD#32)) := by
  unfold k0_pay2 k0_pay1
  simp only [shapeCast_self]
  rfl

/-- The printed index maps, decided over the grid: every input window moves with output window 4, block for block, and
    the output's block indices stay in their ranges (five row blocks, one column block). -/
theorem idx_facts4 : ∀ t : Fin cfg0.N, win0_0.index t (0 : Fin 2) = win0_4.index t (0 : Fin 2) + 0
    ∧ win0_0.index t (1 : Fin 2) = win0_4.index t (1 : Fin 2) + 0
    ∧ win0_1.index t (0 : Fin 2) = win0_4.index t (0 : Fin 2) + 0
    ∧ win0_1.index t (1 : Fin 2) = win0_4.index t (1 : Fin 2) + 0
    ∧ win0_2.index t (0 : Fin 2) = win0_4.index t (0 : Fin 2) + 0
    ∧ win0_2.index t (1 : Fin 2) = win0_4.index t (1 : Fin 2) + 0
    ∧ 0 ≤ win0_4.index t (0 : Fin 2) ∧ win0_4.index t (0 : Fin 2) ≤ 4
    ∧ 0 ≤ win0_4.index t (1 : Fin 2) ∧ win0_4.index t (1 : Fin 2) ≤ 0 :=
  (by decide +kernel : ∀ t : Fin grid0.N, _)

/-- Every block of the array is SOME point's. -/
theorem idx_onto4 : ∀ (q0 : Fin 5) (q1 : Fin 1), ∃ t : Fin cfg0.N, win0_4.index t = ![q0.val + 0, q1.val + 0] :=
  (by decide +kernel : ∀ (q0 : Fin 5) (q1 : Fin 1), ∃ t : Fin grid0.N, win0_4.index t = ![q0.val + 0, q1.val + 0])

/-- WHAT POINT `t` WRITES BACK is block `t` of the edge flow of the three arrays the body reads for this output, as the
    region finds them: an input's block at a point sits where the output's does, so the block of the pointwise
    flow is the pointwise flow of the blocks. -/
theorem flushed4_eq (c : Dev nD) (t : Fin cfg0.N) :
    (dats m 0 c).flushed 4 t = ((cfg0.win 4).blk t).view.read (Elt F) (flow (V m c main_v22) (V m c main_v23) (V m c main_v24)) := by
  show (cfg0.win 4).cut (grid0.coords t) ((dats m 0 c).after 4 t) = _
  rw [after0_4]
  unfold out0_4
  rw [View.canon_unit_zero hz]
  simp only [View.ld_unit_zero (S := S5000x128) hz]
  rw [pay4_eq]
  obtain ⟨e0, e1, e2, e3, e4, e5, e6, e7, e8, e9⟩ := idx_facts4 t
  funext j
  show FloatOps.divf (FloatOps.mulf (V m c main_v22 (((cfg0.win 0).blk t).view.emb j)) (V m c main_v23 (((cfg0.win 1).blk t).view.emb j)))
      (FloatOps.addf (V m c main_v24 (((cfg0.win 2).blk t).view.emb j)) (Scalar.ofBits .f32 0x358637BD#32))
    = FloatOps.divf (FloatOps.mulf (V m c main_v22 (((cfg0.win 4).blk t).view.emb j)) (V m c main_v23 (((cfg0.win 4).blk t).view.emb j)))
      (FloatOps.addf (V m c main_v24 (((cfg0.win 4).blk t).view.emb j)) (Scalar.ofBits .f32 0x358637BD#32))
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 128 + 1 * (j 1).val = win0_4.index t (1 : Fin 2) * 128 + 1 * (j 1).val; omega
  rw [h0, h1, h2]

/-- An index of the array is in point `t`'s block iff each coordinate is in the block's range on its axis. -/
theorem mem_blk4 (t : Fin cfg0.N) (i : S25000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v26_0).slice (win0_4.rect t)).set ↔ _
  rw [View.set_slice_whole, Rect.mem_set_unit]
  exact Iff.rfl

/-- THE COVER: every index of the array is in the block of the point its row falls in (row r in point r / 5000). -/
theorem cover4 (i : S25000x128.Idx) :
    ∃ t : Fin cfg0.N, (cfg0.win 4).flush t = true ∧ i ∈ ((cfg0.win 4).blk t).view.set := by
  have hi0 : (i 0).val < 25000 := (i 0).isLt
  have hi1 : (i 1).val < 128 := (i 1).isLt
  obtain ⟨t, ht⟩ := idx_onto4 ⟨(i 0).val / 5000 - 0, by omega⟩ ⟨(i 1).val / 128 - 0, by omega⟩
  have q0 : win0_4.index t (0 : Fin 2) = (i 0).val / 5000 - 0 + 0 := congrFun ht 0
  have q1 : win0_4.index t (1 : Fin 2) = (i 1).val / 128 - 0 + 0 := congrFun ht 1
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY after the run: the edge flow of the three arrays, everywhere. -/
theorem final4 (c : Dev nD) :
    (dats m 0 c).arrAt 4 cfg0.N = flow (V m c main_v22) (V m c main_v23) (V m c main_v24) :=
  (dats m 0 c).arrAt_eq_of_cover 4 _ (fun t _ => flushed4_eq m c t) (fun i => cover4 i)

/-! ## Output window 5 -/

/-- The body's payload for this output is that pointwise tree of its loaded blocks (a cast to the same shape is the identity). -/
theorem pay5_eq (x0 x1 x2 : Vec F S5000x128 .f32) :
    k0_pay3 x0 x1 x2 = fun j => FloatOps.divf (FloatOps.mulf (x0 j) (x1 j)) (FloatOps.addf (x2 j) (Scalar.ofBits .f32 0x358637BD#32)) := by
  unfold k0_pay3 k0_pay1
  simp only [shapeCast_self]
  rfl

/-- The printed index maps, decided over the grid: every input window moves with output window 5, block for block, and
    the output's block indices stay in their ranges (five row blocks, one column block). -/
theorem idx_facts5 : ∀ t : Fin cfg0.N, win0_0.index t (0 : Fin 2) = win0_5.index t (0 : Fin 2) + 0
    ∧ win0_0.index t (1 : Fin 2) = win0_5.index t (1 : Fin 2) + 0
    ∧ win0_1.index t (0 : Fin 2) = win0_5.index t (0 : Fin 2) + 0
    ∧ win0_1.index t (1 : Fin 2) = win0_5.index t (1 : Fin 2) + 0
    ∧ win0_3.index t (0 : Fin 2) = win0_5.index t (0 : Fin 2) + 0
    ∧ win0_3.index t (1 : Fin 2) = win0_5.index t (1 : Fin 2) + 0
    ∧ 0 ≤ win0_5.index t (0 : Fin 2) ∧ win0_5.index t (0 : Fin 2) ≤ 4
    ∧ 0 ≤ win0_5.index t (1 : Fin 2) ∧ win0_5.index t (1 : Fin 2) ≤ 0 :=
  (by decide +kernel : ∀ t : Fin grid0.N, _)

/-- Every block of the array is SOME point's. -/
theorem idx_onto5 : ∀ (q0 : Fin 5) (q1 : Fin 1), ∃ t : Fin cfg0.N, win0_5.index t = ![q0.val + 0, q1.val + 0] :=
  (by decide +kernel : ∀ (q0 : Fin 5) (q1 : Fin 1), ∃ t : Fin grid0.N, win0_5.index t = ![q0.val + 0, q1.val + 0])

/-- WHAT POINT `t` WRITES BACK is block `t` of the edge flow of the three arrays the body reads for this output, as the
    region finds them: an input's block at a point sits where the output's does, so the block of the pointwise
    flow is the pointwise flow of the blocks. -/
theorem flushed5_eq (c : Dev nD) (t : Fin cfg0.N) :
    (dats m 0 c).flushed 5 t = ((cfg0.win 5).blk t).view.read (Elt F) (flow (V m c main_v22) (V m c main_v23) (V m c main_v25)) := by
  show (cfg0.win 5).cut (grid0.coords t) ((dats m 0 c).after 5 t) = _
  rw [after0_5]
  unfold out0_5
  rw [View.canon_unit_zero hz]
  simp only [View.ld_unit_zero (S := S5000x128) hz]
  rw [pay5_eq]
  obtain ⟨e0, e1, e2, e3, e4, e5, e6, e7, e8, e9⟩ := idx_facts5 t
  funext j
  show FloatOps.divf (FloatOps.mulf (V m c main_v22 (((cfg0.win 0).blk t).view.emb j)) (V m c main_v23 (((cfg0.win 1).blk t).view.emb j)))
      (FloatOps.addf (V m c main_v25 (((cfg0.win 3).blk t).view.emb j)) (Scalar.ofBits .f32 0x358637BD#32))
    = FloatOps.divf (FloatOps.mulf (V m c main_v22 (((cfg0.win 5).blk t).view.emb j)) (V m c main_v23 (((cfg0.win 5).blk t).view.emb j)))
      (FloatOps.addf (V m c main_v25 (((cfg0.win 5).blk t).view.emb j)) (Scalar.ofBits .f32 0x358637BD#32))
  have h0 : ((cfg0.win 0).blk t).view.emb j = ((cfg0.win 5).blk t).view.emb j := by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * (j 1).val = win0_5.index t (1 : Fin 2) * 128 + 1 * (j 1).val; omega
  have h2 : ((cfg0.win 3).blk t).view.emb j = ((cfg0.win 5).blk t).view.emb j := by
    funext a; apply Fin.ext
    match a with
    | ⟨0, _⟩ => show win0_3.index t (0 : Fin 2) * 5000 + 1 * (j 0).val = win0_5.index t (0 : Fin 2) * 5000 + 1 * (j 0).val; omega
    | ⟨1, _⟩ => show win0_3.index t (1 : Fin 2) * 128 + 1 * (j 1).val = win0_5.index t (1 : Fin 2) * 128 + 1 * (j 1).val; omega
  rw [h0, h1, h2]

/-- An index of the array is in point `t`'s block iff each coordinate is in the block's range on its axis. -/
theorem mem_blk5 (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26_1).slice (win0_5.rect t)).set ↔ _
  rw [View.set_slice_whole, Rect.mem_set_unit]
  exact Iff.rfl

/-- THE COVER: every index of the array is in the block of the point its row falls in (row r in point r / 5000). -/
theorem cover5 (i : S25000x128.Idx) :
    ∃ t : Fin cfg0.N, (cfg0.win 5).flush t = true ∧ i ∈ ((cfg0.win 5).blk t).view.set := by
  have hi0 : (i 0).val < 25000 := (i 0).isLt
  have hi1 : (i 1).val < 128 := (i 1).isLt
  obtain ⟨t, ht⟩ := idx_onto5 ⟨(i 0).val / 5000 - 0, by omega⟩ ⟨(i 1).val / 128 - 0, by omega⟩
  have q0 : win0_5.index t (0 : Fin 2) = (i 0).val / 5000 - 0 + 0 := congrFun ht 0
  have q1 : win0_5.index t (1 : Fin 2) = (i 1).val / 128 - 0 + 0 := congrFun ht 1
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the run: the edge flow of the three arrays, everywhere. -/
theorem final5 (c : Dev nD) :
    (dats m 0 c).arrAt 5 cfg0.N = flow (V m c main_v22) (V m c main_v23) (V m c main_v25) :=
  (dats m 0 c).arrAt_eq_of_cover 5 _ (fun t _ => flushed5_eq m c t) (fun i => cover5 i)

end Cert.KernelIdeal.Hand

end
-- ==== Proof.EdgeFlows.lean ====
/- THE TWO PROGRAMS' EDGE FLOWS READ AT AN EDGE, over the extended reals.

   The kernel program's region leaves in each of its two output arrays the flow  (v·p) / (e + ε)  of three arrays laid out
   as [25000, 128] tiles: v the squared voltage of every edge's source node, p the edge probabilities, e one column of the
   edge parameters. Laying an edge vector out as a tile and flattening it back are the same re-indexing there and back,
   and the flow is computed element by element, so the flattened output at edge i is (v i · p i) / (e i + ε).

   The reference computes, at edge i, (√s·√s / (e i + ε)) · p i  with s = g0² + g1² the squared voltage it reads off the
   source's two features g0, g1. Both are stated here as plain arithmetic of extended reals at the edge. -/
import proofs.«122857_j38010460570139_2_alg».proof.Proof.KernelBlocks
import proofs.«122857_j38010460570139_2_alg».proof.Proof.KernelRead
import proofs.«122857_j38010460570139_2_alg».proof.Proof.Loss
import Idealize.ShloMosaic.Lib.ValueIdx
import Idealize.ShloMosaic.Lib.Pipeline.Value

set_option maxRecDepth 16384

noncomputable section

namespace Cert.EdgeFlows

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

/-! ## The kernel program's side -/

section Kernel

variable (m : (ℓ : Loc nD τ sig) → Buf (Elt Ideal) ℓ)

/-- Each output array after the run is the flow of the three tiles the host laid out before the region. -/
theorem arr4_eq (c : Dev nD) : (dats m 0 c).arrAt 4 cfg0.N
    = Cert.KernelIdeal.Hand.flow (F := Ideal) (Cert.KernelTerm.tile (Cert.KernelTerm.v2src (F := Ideal) (m ((c : Thread nD τ).loc main_arg0)) (m ((c : Thread nD τ).loc main_arg1)))) (Cert.KernelTerm.tile (m ((c : Thread nD τ).loc main_arg2))) (Cert.KernelTerm.tile (Cert.KernelTerm.parK0 (F := Ideal) (m ((c : Thread nD τ).loc main_arg3)))) :=
  (final4 m c).trans (by rw [V_main_v22 m c, V_main_v23 m c, V_main_v24 m c])
theorem arr5_eq (c : Dev nD) : (dats m 0 c).arrAt 5 cfg0.N
    = Cert.KernelIdeal.Hand.flow (F := Ideal) (Cert.KernelTerm.tile (Cert.KernelTerm.v2src (F := Ideal) (m ((c : Thread nD τ).loc main_arg0)) (m ((c : Thread nD τ).loc main_arg1)))) (Cert.KernelTerm.tile (m ((c : Thread nD τ).loc main_arg2))) (Cert.KernelTerm.tile (Cert.KernelTerm.parK1 (F := Ideal) (m ((c : Thread nD τ).loc main_arg3)))) :=
  (final5 m c).trans (by rw [V_main_v22 m c, V_main_v23 m c, V_main_v25 m c])

end Kernel

/-- A tile flattened back is the edge vector it was laid out from, edge by edge. -/
theorem untile_tile {α : Type} (x : S3200000.Idx → α) (i : S3200000.Idx) :
    Cert.KernelTerm.untile (Cert.KernelTerm.tile x) i = x i :=
  congrFun (shapeCast_shapeCast x _ _) i

/-- The flow of three tiles, flattened, read at an edge: the flow of the three edge vectors there. -/
theorem untile_flow (x y z : FVec Ideal S3200000 .f32) (i : S3200000.Idx) :
    Cert.KernelTerm.untile (Cert.KernelIdeal.Hand.flow (F := Ideal) (Cert.KernelTerm.tile x) (Cert.KernelTerm.tile y) (Cert.KernelTerm.tile z)) i
      = Ideal.div (x i * y i) (z i + Ideal.ofBits .f32 0x358637BD#32) :=
  (show Cert.KernelTerm.untile (Cert.KernelIdeal.Hand.flow (F := Ideal) (Cert.KernelTerm.tile x) (Cert.KernelTerm.tile y) (Cert.KernelTerm.tile z)) i
      = Ideal.div (Cert.KernelTerm.untile (Cert.KernelTerm.tile x) i * Cert.KernelTerm.untile (Cert.KernelTerm.tile y) i)
          (Cert.KernelTerm.untile (Cert.KernelTerm.tile z) i + Ideal.ofBits .f32 0x358637BD#32) from rfl).trans
    (by rw [untile_tile x i, untile_tile y i, untile_tile z i])

section Kernel

variable (m : (ℓ : Loc nD τ sig) → Buf (Elt Ideal) ℓ)

/-- The kernel program's two edge flows at edge `e`. -/
theorem edgeK0_apply (c : Dev nD) (e : Fin 3200000) :
    Cert.KernelTerm.untile ((dats m 0 c).arrAt 4 cfg0.N) (ix1 e)
      = Ideal.div (Cert.KernelTerm.v2src (F := Ideal) (m ((c : Thread nD τ).loc main_arg0)) (m ((c : Thread nD τ).loc main_arg1)) (ix1 e) * (m ((c : Thread nD τ).loc main_arg2)) (ix1 e)) (Cert.KernelTerm.parK0 (F := Ideal) (m ((c : Thread nD τ).loc main_arg3)) (ix1 e) + Ideal.ofBits .f32 0x358637BD#32) :=
  (congrArg (fun X => Cert.KernelTerm.untile X (ix1 e)) (arr4_eq m c)).trans (untile_flow _ _ _ (ix1 e))
theorem edgeK1_apply (c : Dev nD) (e : Fin 3200000) :
    Cert.KernelTerm.untile ((dats m 0 c).arrAt 5 cfg0.N) (ix1 e)
      = Ideal.div (Cert.KernelTerm.v2src (F := Ideal) (m ((c : Thread nD τ).loc main_arg0)) (m ((c : Thread nD τ).loc main_arg1)) (ix1 e) * (m ((c : Thread nD τ).loc main_arg2)) (ix1 e)) (Cert.KernelTerm.parK1 (F := Ideal) (m ((c : Thread nD τ).loc main_arg3)) (ix1 e) + Ideal.ofBits .f32 0x358637BD#32) :=
  (congrArg (fun X => Cert.KernelTerm.untile X (ix1 e)) (arr5_eq m c)).trans (untile_flow _ _ _ (ix1 e))

end Kernel

/-! ## The reference's side -/

/-- The shift ε is the same constant on every edge. -/
theorem epsV_apply (j : Cert.ReferenceIdeal.S3200000.Idx) : Cert.Loss.epsV (F := Ideal) j = Ideal.ofBits .f32 0x358637BD#32 := rfl

/-- The reference's flow at edge `e`, for the edge parameter `ep`: (√s·√s / (ep + ε)) · p with s the sum of the squares of the
    source's first two features. -/
theorem edgeFlowR_apply (a0 : FVec Ideal Cert.ReferenceIdeal.S100000x4 .f32) (a1 : IVec Cert.ReferenceIdeal.S2x3200000 32)
    (a2 ep : FVec Ideal Cert.ReferenceIdeal.S3200000 .f32) (e : Fin 3200000) :
    Cert.Loss.edgeFlowR (F := Ideal) a0 a1 a2 ep (ix1 e)
      = Ideal.div
          (Ideal.sqrt (Cert.Loss.srcFeature 0#32 a0 a1 (ix1 e) * Cert.Loss.srcFeature 0#32 a0 a1 (ix1 e) + Cert.Loss.srcFeature 1#32 a0 a1 (ix1 e) * Cert.Loss.srcFeature 1#32 a0 a1 (ix1 e))
            * Ideal.sqrt (Cert.Loss.srcFeature 0#32 a0 a1 (ix1 e) * Cert.Loss.srcFeature 0#32 a0 a1 (ix1 e) + Cert.Loss.srcFeature 1#32 a0 a1 (ix1 e) * Cert.Loss.srcFeature 1#32 a0 a1 (ix1 e)))
          (ep (ix1 e) + Ideal.ofBits .f32 0x358637BD#32) * a2 (ix1 e) :=
  (show Cert.Loss.edgeFlowR (F := Ideal) a0 a1 a2 ep (ix1 e)
      = Ideal.div
          (Ideal.sqrt (Cert.Loss.srcFeature 0#32 a0 a1 (ix1 e) * Cert.Loss.srcFeature 0#32 a0 a1 (ix1 e) + Cert.Loss.srcFeature 1#32 a0 a1 (ix1 e) * Cert.Loss.srcFeature 1#32 a0 a1 (ix1 e))
            * Ideal.sqrt (Cert.Loss.srcFeature 0#32 a0 a1 (ix1 e) * Cert.Loss.srcFeature 0#32 a0 a1 (ix1 e) + Cert.Loss.srcFeature 1#32 a0 a1 (ix1 e) * Cert.Loss.srcFeature 1#32 a0 a1 (ix1 e)))
          (ep (ix1 e) + Cert.Loss.epsV (F := Ideal) (ix1 e)) * a2 (ix1 e) from rfl).trans
    (by rw [epsV_apply])

end Cert.EdgeFlows

end
-- ==== Proof.LibGatherScatter.lean ====
/-
  `stablehlo.gather` and the accumulating `stablehlo.scatter` READ AT AN INDEX, for start indices given as an `[E, 1]`
  array.

  What `x[idx]` and a segment sum lower to when the `E` start indices are the rows of an `[E, 1]` integer array, the
  index vector on axis 1 with its one component naming operand axis 0:
  * gather of a flat operand `[N]` (`vecGatherDims`, `gather_vec_apply`): result element `e` is the operand at the start
    index `idx[e, 0]`, read signed and clamped into `[0, N − 1]`;
  * gather of the rows of an operand `[N, C]` (`rowGatherDims`, `gather_row_apply`): result element `(e, j)` is the
    operand at row `idx[e, 0]` (signed, clamped into `[0, N − 1]`) and column `j`;
  * accumulating scatter of update rows `[E, C]` into an operand `[N, C]` (`rowScatterDims`, `scatterAdd_row_apply`):
    operand element `(i, j)` plus the sum of `upd[e, j]` over the update rows `e` whose start index `idx[e, 0]`, read
    signed and NOT clamped, is `i` (a row whose start index is outside `[0, N)` is dropped);
  * accumulating scatter of updates `[E]` into a flat operand `[N]` (`vecScatterDims`, `scatterAdd_vec_apply`): operand
    element `i` plus the sum of `upd[e]` over the `e` with `idx[e, 0] = i`.
  The conditions `wf` on the dimension numbers are decided on a program's literal shapes; any two proofs of them are
  equal, so a program's record with these field values is the one here.
-/
import Idealize.ShloMosaic.Lib.ValueIdx
import Idealize.ShloMosaic.PureOps.Ideal

noncomputable section

open scoped BigOperators

namespace Idealize.ShloMosaic.GatherScatter

open Idealize.ShloMosaic Idealize.ShloMosaic.ValueIdx

/-! ## The dimension numbers -/

/-- Gather of a flat operand `[N]` at start indices `[E, 1]`, result `[E]`: no offset axes, operand axis 0 collapsed,
    the index vector on axis 1 with its one component naming operand axis 0, slice size 1. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of the rows of an operand `[N, C]` at start indices `[E, 1]`, result `[E, C]`: result axis 1 the offset axis
    (the column), operand axis 0 collapsed, the index vector on axis 1 with its one component naming operand axis 0,
    slice sizes one row by all `C` columns. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Scatter of update rows `[E, C]` into an operand `[N, C]` at scatter indices `[E, 1]`: update axis 1 the window axis
    (the column), operand axis 0 inserted, the index vector on axis 1 with its one component naming operand axis 0. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of updates `[E]` into a flat operand `[N]` at scatter indices `[E, 1]`: no window axes, operand axis 0
    inserted, the index vector on axis 1 with its one component naming operand axis 0. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers read at an index -/

/-- THE FLAT GATHER READ AT `e`: the operand at the start index `idx[e, 0]`, read signed and clamped into
    `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE ROW GATHER READ AT `(e, j)`: the operand at row `idx[e, 0]`, read signed and clamped into `[0, N − 1]`, and
    column `j` (axis 0 takes the clamped start, no offset; axis 1 is not in the start index map and takes the result's
    offset coordinate). -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j) = x (ix2 ⟨min (idx (ix2 e 0)).toInt.toNat (N - 1), by omega⟩ j) := by
  unfold Host.gather
  congr 1
  funext a
  refine Fin.ext ?_
  match a with
  | ⟨0, _⟩ =>
    show (rowGatherDims N C E wf).start (ix2 e j) idx 0 + (rowGatherDims N C E wf).batchCoord (ix2 e j) 0
      + (rowGatherDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e j) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e j) idx 1 + (rowGatherDims N C E wf).batchCoord (ix2 e j) 1
      + (rowGatherDims N C E wf).offCoord (ix2 e j) 1 = j.val
    rw [GatherDims.batchCoord_eq_zero _ _ _ List.not_mem_nil]
    have hs : (rowGatherDims N C E wf).start (ix2 e j) idx 1 = 0 := by
      unfold GatherDims.start
      rw [dif_neg (show (1 : Fin 2) ∉ (rowGatherDims N C E wf).startIndexMap from (by decide : (1 : Fin 2) ∉ [(0 : Fin 2)]))]
    rw [hs]
    simp only [Nat.add_zero, Nat.zero_add]
    have hk : (1 : Fin 2) ∈ (rowGatherDims N C E wf).sKept :=
      (GatherDims.mem_sKept _ _).mpr ⟨(by decide : (1 : Fin 2) ∉ [(0 : Fin 2)]), List.not_mem_nil⟩
    unfold GatherDims.offCoord
    rw [dif_pos hk]
    rfl

/-! ## The accumulating row scatter read at an index -/

section RowScatter
variable {N C E w : Nat} (wf : ScatterDims.WF ⟨2, ![N, C]⟩ ⟨2, ![E, 1]⟩ ⟨2, ![E, C]⟩ [1] [0] [0] 1)

/-- On operand axis 0 the window of update index `u` starts at the scatter index `idx[u₀, 0]`, read signed. -/
theorem rowScatter_start0 (idx : IVec ⟨2, ![E, 1]⟩ w) (u : (⟨2, ![E, C]⟩ : Shape).Idx) :
    (rowScatterDims N C E wf).start u idx (0 : Fin 2) = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 1 is not named by the scatter index: its window starts at `0`. -/
theorem rowScatter_start1 (idx : IVec ⟨2, ![E, 1]⟩ w) (u : (⟨2, ![E, C]⟩ : Shape).Idx) :
    (rowScatterDims N C E wf).start u idx (1 : Fin 2) = 0 := by
  unfold ScatterDims.start
  rw [dif_neg (show (1 : Fin 2) ∉ (rowScatterDims N C E wf).scatterDimsToOperandDims from
    (by decide : (1 : Fin 2) ∉ [(0 : Fin 2)]))]

/-- Operand axis 0 is an inserted axis: no window coordinate. -/
theorem rowScatter_window0 (u : (⟨2, ![E, C]⟩ : Shape).Idx) :
    (rowScatterDims N C E wf).window u (0 : Fin 2) = 0 := by
  unfold ScatterDims.window
  rw [dif_neg (show (0 : Fin 2) ∉ (rowScatterDims N C E wf).sKept from
    (by decide : (0 : Fin 2) ∉ (List.finRange 2).filter (· ∉ [(0 : Fin 2)])))]

/-- On operand axis 1 the window coordinate of update index `u` is its column. -/
theorem rowScatter_window1 (u : (⟨2, ![E, C]⟩ : Shape).Idx) :
    (rowScatterDims N C E wf).window u (1 : Fin 2) = (u 1).val := by
  unfold ScatterDims.window
  rw [dif_pos (show (1 : Fin 2) ∈ (rowScatterDims N C E wf).sKept from
    (by decide : (1 : Fin 2) ∈ (List.finRange 2).filter (· ∉ [(0 : Fin 2)])))]
  rfl

/-- Update index `u = (e, j')` lands on operand index `(i, j)` exactly when the signed start index `idx[e, 0]` is `i`
    and `j' = j`; otherwise it lands elsewhere or, with the start outside `[0, N)`, nowhere. -/
theorem rowScatter_resultIdx_iff (idx : IVec ⟨2, ![E, 1]⟩ w) (u : (⟨2, ![E, C]⟩ : Shape).Idx) (i : Fin N) (j : Fin C) :
    (rowScatterDims N C E wf).resultIdx? u idx = some (ix2 i j) ↔ (idx (ix2 (u 0) 0)).toInt = (i.val : Int) ∧ u 1 = j := by
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := hall (0 : Fin 2)
      have ha1 := hall (1 : Fin 2)
      simp only [rowScatter_start0, rowScatter_start1, rowScatter_window0, rowScatter_window1] at h0 h1 ha0 ha1
      refine ⟨?_, Fin.ext ?_⟩
      · have : (i.val : Int) = ((ix2 i j (0 : Fin 2)).val : Int) := rfl
        omega
      · have : (j.val) = ((ix2 i j (1 : Fin 2)).val) := rfl
        omega
    · exact absurd h (by simp)
  · rintro ⟨h0, h1⟩
    have hall : ∀ a : Fin 2, 0 ≤ (rowScatterDims N C E wf).start u idx a + (rowScatterDims N C E wf).window u a ∧
        (rowScatterDims N C E wf).start u idx a + (rowScatterDims N C E wf).window u a
          < ((⟨2, ![N, C]⟩ : Shape).size a : Int) := by
      intro a
      match a with
      | ⟨0, _⟩ =>
        show 0 ≤ (rowScatterDims N C E wf).start u idx (0 : Fin 2) + ((rowScatterDims N C E wf).window u (0 : Fin 2) : Int) ∧
          (rowScatterDims N C E wf).start u idx (0 : Fin 2) + ((rowScatterDims N C E wf).window u (0 : Fin 2) : Int) < (N : Int)
        rw [rowScatter_start0, rowScatter_window0, h0]
        have := i.isLt
        omega
      | ⟨1, _⟩ =>
        show 0 ≤ (rowScatterDims N C E wf).start u idx (1 : Fin 2) + ((rowScatterDims N C E wf).window u (1 : Fin 2) : Int) ∧
          (rowScatterDims N C E wf).start u idx (1 : Fin 2) + ((rowScatterDims N C E wf).window u (1 : Fin 2) : Int) < (C : Int)
        rw [rowScatter_start1, rowScatter_window1]
        have := idx2_lt1 u
        omega
    rw [dif_pos hall]
    congr 1
    funext a
    refine Fin.ext ?_
    match a with
    | ⟨0, _⟩ =>
      show ((rowScatterDims N C E wf).start u idx (0 : Fin 2) + ((rowScatterDims N C E wf).window u (0 : Fin 2) : Int)).toNat = i.val
      rw [rowScatter_start0, rowScatter_window0, h0]
      omega
    | ⟨1, _⟩ =>
      show ((rowScatterDims N C E wf).start u idx (1 : Fin 2) + ((rowScatterDims N C E wf).window u (1 : Fin 2) : Int)).toNat = j.val
      rw [rowScatter_start1, rowScatter_window1, ← h1]
      omega

/-- THE ACCUMULATING ROW SCATTER READ AT `(i, j)`: the operand's element plus the sum of `upd[e, j]` over the update
    rows `e` whose start index `idx[e, 0]`, read signed and not clamped, is `i`; a row whose start index is outside
    `[0, N)` contributes nothing. (The update indices landing on `(i, j)` are `(e, j)` for those `e`: the sum is
    re-indexed along `e ↦ (e, j)`.) -/
theorem scatterAdd_row_apply
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowScatterDims N C E wf) x idx upd (ix2 i j)
      = x (ix2 i j) + ∑ e ∈ Finset.univ.filter (fun e : Fin E => (idx (ix2 e 0)).toInt = (i.val : Int)), upd (ix2 e j) := by
  unfold Ideal.hostScatterAdd
  congr 1
  refine Finset.sum_nbij' (fun u => u 0) (fun e => ix2 e j) ?_ ?_ ?_ ?_ ?_
  · intro u hu
    exact Finset.mem_filter.mpr ⟨Finset.mem_univ _, ((rowScatter_resultIdx_iff wf idx u i j).mp (Finset.mem_filter.mp hu).2).1⟩
  · intro e he
    exact Finset.mem_filter.mpr ⟨Finset.mem_univ _,
      (rowScatter_resultIdx_iff wf idx (ix2 e j) i j).mpr ⟨(Finset.mem_filter.mp he).2, rfl⟩⟩
  · intro u hu
    have h1 := ((rowScatter_resultIdx_iff wf idx u i j).mp (Finset.mem_filter.mp hu).2).2
    rw [← h1]
    exact (eq_ix2 u).symm
  · intro e _
    rfl
  · intro u hu
    have h1 := ((rowScatter_resultIdx_iff wf idx u i j).mp (Finset.mem_filter.mp hu).2).2
    rw [← h1]
    exact congrArg upd (eq_ix2 u)

end RowScatter

/-! ## The accumulating flat scatter read at an index -/

section VecScatter
variable {N E w : Nat} (wf : ScatterDims.WF ⟨1, ![N]⟩ ⟨2, ![E, 1]⟩ ⟨1, ![E]⟩ [] [0] [0] 1)

/-- On operand axis 0 the window of update index `u` starts at the scatter index `idx[u₀, 0]`, read signed. -/
theorem vecScatter_start0 (idx : IVec ⟨2, ![E, 1]⟩ w) (u : (⟨1, ![E]⟩ : Shape).Idx) :
    (vecScatterDims N E wf).start u idx (0 : Fin 1) = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 0 is an inserted axis: no window coordinate. -/
theorem vecScatter_window0 (u : (⟨1, ![E]⟩ : Shape).Idx) :
    (vecScatterDims N E wf).window u (0 : Fin 1) = 0 := by
  unfold ScatterDims.window
  rw [dif_neg (show (0 : Fin 1) ∉ (vecScatterDims N E wf).sKept from
    (by decide : (0 : Fin 1) ∉ (List.finRange 1).filter (· ∉ [(0 : Fin 1)])))]

/-- Update index `u = (e)` lands on operand index `(i)` exactly when the signed start index `idx[e, 0]` is `i`. -/
theorem vecScatter_resultIdx_iff (idx : IVec ⟨2, ![E, 1]⟩ w) (u : (⟨1, ![E]⟩ : Shape).Idx) (i : Fin N) :
    (vecScatterDims N E wf).resultIdx? u idx = some (ix1 i) ↔ (idx (ix2 (u 0) 0)).toInt = (i.val : Int) := by
  unfold ScatterDims.resultIdx?
  constructor
  · intro h
    split at h
    · rename_i hall
      have hf := Option.some.inj h
      have h0 := congrArg Fin.val (congrFun hf (0 : Fin 1))
      have ha0 := hall (0 : Fin 1)
      simp only [vecScatter_start0, vecScatter_window0] at h0 ha0
      have : (i.val : Int) = ((ix1 i (0 : Fin 1)).val : Int) := rfl
      omega
    · exact absurd h (by simp)
  · intro h0
    have hall : ∀ a : Fin 1, 0 ≤ (vecScatterDims N E wf).start u idx a + (vecScatterDims N E wf).window u a ∧
        (vecScatterDims N E wf).start u idx a + (vecScatterDims N E wf).window u a
          < ((⟨1, ![N]⟩ : Shape).size a : Int) := by
      intro a
      match a with
      | ⟨0, _⟩ =>
        show 0 ≤ (vecScatterDims N E wf).start u idx (0 : Fin 1) + ((vecScatterDims N E wf).window u (0 : Fin 1) : Int) ∧
          (vecScatterDims N E wf).start u idx (0 : Fin 1) + ((vecScatterDims N E wf).window u (0 : Fin 1) : Int) < (N : Int)
        rw [vecScatter_start0, vecScatter_window0, h0]
        have := i.isLt
        omega
    rw [dif_pos hall]
    congr 1
    funext a
    refine Fin.ext ?_
    match a with
    | ⟨0, _⟩ =>
      show ((vecScatterDims N E wf).start u idx (0 : Fin 1) + ((vecScatterDims N E wf).window u (0 : Fin 1) : Int)).toNat = i.val
      rw [vecScatter_start0, vecScatter_window0, h0]
      omega

/-- THE ACCUMULATING FLAT SCATTER READ AT `i`: the operand's element plus the sum of `upd[e]` over the `e` whose start
    index `idx[e, 0]`, read signed and not clamped, is `i`; an update whose start index is outside `[0, N)` contributes
    nothing. -/
theorem scatterAdd_vec_apply
    (x : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e 0)).toInt = (i.val : Int)), upd (ix1 e) := by
  unfold Ideal.hostScatterAdd
  congr 1
  refine Finset.sum_nbij' (fun u => u 0) (fun e => ix1 e) ?_ ?_ ?_ ?_ ?_
  · intro u hu
    exact Finset.mem_filter.mpr ⟨Finset.mem_univ _, (vecScatter_resultIdx_iff wf idx u i).mp (Finset.mem_filter.mp hu).2⟩
  · intro e he
    exact Finset.mem_filter.mpr ⟨Finset.mem_univ _,
      (vecScatter_resultIdx_iff wf idx (ix1 e) i).mpr (Finset.mem_filter.mp he).2⟩
  · intro u _
    exact (eq_ix1 u).symm
  · intro e _
    rfl
  · intro u _
    exact congrArg upd (eq_ix1 u)

end VecScatter

end Idealize.ShloMosaic.GatherScatter

end
-- ==== Proof.LibPointGather.lean ====
/-
  A `stablehlo.gather` of SINGLE ELEMENTS of a matrix, read at an index.

  What `x[rows, col]` lowers to when the `E` start indices are the rows of an `[E, 2]` integer array — component 0 the
  row, component 1 the column — both operand axes collapsed, slice sizes one by one: result element `e` is the operand at
  row `idx[e, 0]` and column `idx[e, 1]`, each read signed and clamped into its axis (`[0, N − 1]`, `[0, C − 1]`).
-/
import Idealize.ShloMosaic.Lib.ValueIdx
import Idealize.ShloMosaic.PureOps.Ideal

noncomputable section

namespace Idealize.ShloMosaic.PointGather

open Idealize.ShloMosaic Idealize.ShloMosaic.ValueIdx

/-- Gather of single elements of an operand `[N, C]` at start indices `[E, 2]`, result `[E]`: no offset axes, both
    operand axes collapsed, the index vector on axis 1 with component `k` naming operand axis `k`, slice sizes 1 × 1. -/
abbrev pointGatherDims (N C E : Nat)
    (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE POINT GATHER READ AT `e`: the operand at row `idx[e, 0]` and column `idx[e, 1]`, each read signed and clamped
    into its axis. -/
theorem gather_point_apply {α : Type} {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (e : Fin E) :
    Host.gather (pointGatherDims N C E wf) x idx (ix1 e)
      = x (ix2 ⟨min (idx (ix2 e 0)).toInt.toNat (N - 1), by omega⟩ ⟨min (idx (ix2 e 1)).toInt.toNat (C - 1), by omega⟩) := by
  unfold Host.gather
  congr 1
  funext a
  refine Fin.ext ?_
  match a with
  | ⟨0, _⟩ =>
    show (pointGatherDims N C E wf).start (ix1 e) idx 0 + (pointGatherDims N C E wf).batchCoord (ix1 e) 0
      + (pointGatherDims N C E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (pointGatherDims N C E wf).startIndexMap from by simp)]
    have hsi : (pointGatherDims N C E wf).siIdx (ix1 e) ⟨List.idxOf (0 : Fin 2) (pointGatherDims N C E wf).startIndexMap,
        List.idxOf_lt_length_iff.2 (by simp)⟩ = ix2 e 0 := by
      funext b; refine Fin.ext ?_
      match b with
      | ⟨0, _⟩ => rfl
      | ⟨1, _⟩ => rfl
    rw [hsi]
    rfl
  | ⟨1, _⟩ =>
    show (pointGatherDims N C E wf).start (ix1 e) idx 1 + (pointGatherDims N C E wf).batchCoord (ix1 e) 1
      + (pointGatherDims N C E wf).offCoord (ix1 e) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 2) ∈ (pointGatherDims N C E wf).startIndexMap from by simp)]
    have hsi : (pointGatherDims N C E wf).siIdx (ix1 e) ⟨List.idxOf (1 : Fin 2) (pointGatherDims N C E wf).startIndexMap,
        List.idxOf_lt_length_iff.2 (by simp)⟩ = ix2 e 1 := by
      funext b; refine Fin.ext ?_
      match b with
      | ⟨0, _⟩ => rfl
      | ⟨1, _⟩ => rfl
    rw [hsi]
    rfl

end Idealize.ShloMosaic.PointGather

end
-- ==== Proof.EdgeReads.lean ====
/-
  The two programs' gathers of the node array, read at one edge, over the extended reals.

  The kernel first forms, per node n, the flat array x(n)² + y(n)² from columns 0 and 1 of the node array
  (a slice of one column, reshaped to a flat array, squared; the two squares added) and then gathers it at
  the edge's source index; the reference gathers the single elements (row, 0) and (row, 1) of the node array
  at start indices (source index, 0) and (source index, 1), written as the concatenation of two one-column
  index arrays. A gather reads its start index as a signed integer and clamps it into the operand's axis,
  so both read row r = min (source index) 99999 of the node array, and a constant column index 0 or 1,
  clamped into [0, 3], is itself.
-/
import proofs.«122857_j38010460570139_2_alg».proof.KernelIdeal
import proofs.«122857_j38010460570139_2_alg».proof.ReferenceIdeal
import proofs.«122857_j38010460570139_2_alg».proof.Proof.LibGatherScatter
import proofs.«122857_j38010460570139_2_alg».proof.Proof.LibPointGather
import Idealize.ShloMosaic.Lib.Pipeline.Value
import Idealize.ShloMosaic.Lib.ValueIdx
import Idealize.ShloMosaic.PureOps.Ideal

noncomputable section

namespace Cert.EdgeReads

open Idealize.ShloMosaic Idealize.ShloMosaic.ValueIdx
open Idealize.ShloMosaic.GatherScatter Idealize.ShloMosaic.PointGather

/-- The row a gather reads at edge `e`: the source index read signed and clamped into `[0, 99999]`. -/
abbrev row (gI : IVec ⟨1, ![3200000]⟩ 32) (e : Fin 3200000) : Fin 100000 :=
  ⟨min (gI (ix1 e)).toInt.toNat 99999, by omega⟩

/-! ## The kernel's gather -/

section Kernel
open Cert.KernelIdeal Cert.KernelIdeal.Facts₀
variable [Cert.KernelIdeal.Facts]

/-- Column 0 of the node array as a flat array, read at node `n`. -/
theorem k_col0_apply (a0 : FVec Ideal S100000x4 .f32) (n : Fin 100000) :
    shapeCast _ (extractStridedSlice S100000x1 ![0, 0] a0 slices_S100000x4_S100000x1_0_0) shapeCasts_S100000x1_S100000
      (ix1 n) = a0 (ix2 n 0) := by
  refine (shapeCast_apply _ shapeCasts_S100000x1_S100000 (ix1 n) (ix2 n 0) ?_).trans ?_
  · rewrite [Shape.rowMajor_val_two, Shape.rowMajor_val_one]
    show n.val * 1 + 0 = n.val
    omega
  · exact extractStridedSlice_apply ![0, 0] a0 slices_S100000x4_S100000x1_0_0 (ix2 n 0) (ix2 n 0) (fun a => match a with
      | ⟨0, _⟩ => by show n.val = 0 + n.val; omega
      | ⟨1, _⟩ => by show (0 : Nat) = 0 + 0; omega)

/-- Column 1 of the node array as a flat array, read at node `n`. -/
theorem k_col1_apply (a0 : FVec Ideal S100000x4 .f32) (n : Fin 100000) :
    shapeCast _ (extractStridedSlice S100000x1 ![0, 1] a0 slices_S100000x4_S100000x1_0_1) shapeCasts_S100000x1_S100000
      (ix1 n) = a0 (ix2 n 1) := by
  refine (shapeCast_apply _ shapeCasts_S100000x1_S100000 (ix1 n) (ix2 n 0) ?_).trans ?_
  · rewrite [Shape.rowMajor_val_two, Shape.rowMajor_val_one]
    show n.val * 1 + 0 = n.val
    omega
  · exact extractStridedSlice_apply ![0, 1] a0 slices_S100000x4_S100000x1_0_1 (ix2 n 0) (ix2 n 1) (fun a => match a with
      | ⟨0, _⟩ => by show n.val = 0 + n.val; omega
      | ⟨1, _⟩ => by show (1 : Nat) = 1 + 0; omega)

/-- The source indices as a one-column array, read at row `e`. -/
theorem k_bcast_apply (gI : IVec S3200000 32) (e : Fin 3200000) :
    broadcastInDim S3200000x1 ![0] bcast_S3200000_S3200000x1_0 gI (ix2 e 0) = gI (ix1 e) :=
  broadcastInDim_apply _ bcast_S3200000_S3200000x1_0 gI (ix2 e 0) (ix1 e) (fun a => match a with
    | ⟨0, _⟩ => by show e.val = if (3200000 : Nat) = 1 then 0 else e.val; rw [if_neg (by decide)])

/-- THE KERNEL'S GATHER AT EDGE `e`: x(r)² + y(r)² at the clamped source row `r`. -/
theorem kernel_gather_apply (a0 : FVec Ideal S100000x4 .f32) (gI : IVec S3200000 32) (e : Fin 3200000) :
    Host.gather gather_S100000_S3200000x1_S3200000_n_0_n_n_0_1_1
      (addf (F := Ideal) (φ := .f32)
        (mulf (F := Ideal) (φ := .f32)
          (shapeCast _ (extractStridedSlice S100000x1 ![0, 0] a0 slices_S100000x4_S100000x1_0_0) shapeCasts_S100000x1_S100000)
          (shapeCast _ (extractStridedSlice S100000x1 ![0, 0] a0 slices_S100000x4_S100000x1_0_0) shapeCasts_S100000x1_S100000))
        (mulf (F := Ideal) (φ := .f32)
          (shapeCast _ (extractStridedSlice S100000x1 ![0, 1] a0 slices_S100000x4_S100000x1_0_1) shapeCasts_S100000x1_S100000)
          (shapeCast _ (extractStridedSlice S100000x1 ![0, 1] a0 slices_S100000x4_S100000x1_0_1) shapeCasts_S100000x1_S100000)))
      (broadcastInDim S3200000x1 ![0] bcast_S3200000_S3200000x1_0 gI) (ix1 e)
    = a0 (ix2 (row gI e) 0) * a0 (ix2 (row gI e) 0) + a0 (ix2 (row gI e) 1) * a0 (ix2 (row gI e) 1) := by
  -- the program's dimension numbers are the flat gather's
  have hrec : gather_S100000_S3200000x1_S3200000_n_0_n_n_0_1_1
      = vecGatherDims 100000 3200000 gather_S100000_S3200000x1_S3200000_n_0_n_n_0_1_1_wf := rfl
  rw [hrec]
  refine (gather_vec_apply (by decide) gather_S100000_S3200000x1_S3200000_n_0_n_n_0_1_1_wf _ _ e).trans ?_
  -- the row read is the clamped source index
  have hr : (⟨min ((broadcastInDim S3200000x1 ![0] bcast_S3200000_S3200000x1_0 gI) (ix2 e 0)).toInt.toNat (100000 - 1),
      by omega⟩ : Fin 100000) = row gI e := Fin.ext (by
    show min ((broadcastInDim S3200000x1 ![0] bcast_S3200000_S3200000x1_0 gI) (ix2 e 0)).toInt.toNat (100000 - 1)
      = min (gI (ix1 e)).toInt.toNat 99999
    rw [k_bcast_apply])
  rw [hr]
  -- the sum of squares at that row, column by column
  show shapeCast _ (extractStridedSlice S100000x1 ![0, 0] a0 slices_S100000x4_S100000x1_0_0) shapeCasts_S100000x1_S100000 (ix1 (row gI e))
        * shapeCast _ (extractStridedSlice S100000x1 ![0, 0] a0 slices_S100000x4_S100000x1_0_0) shapeCasts_S100000x1_S100000 (ix1 (row gI e))
      + shapeCast _ (extractStridedSlice S100000x1 ![0, 1] a0 slices_S100000x4_S100000x1_0_1) shapeCasts_S100000x1_S100000 (ix1 (row gI e))
        * shapeCast _ (extractStridedSlice S100000x1 ![0, 1] a0 slices_S100000x4_S100000x1_0_1) shapeCasts_S100000x1_S100000 (ix1 (row gI e))
      = _
  rw [k_col0_apply, k_col1_apply]

end Kernel

/-! ## The reference's gathers -/

section Reference
open Cert.ReferenceIdeal Cert.ReferenceIdeal.Facts₀
variable [Cert.ReferenceIdeal.Facts]

/-- The source indices as a one-column array, read at row `e`. -/
theorem r_bcast_apply (gI : IVec S3200000 32) (e : Fin 3200000) :
    broadcastInDim S3200000x1 ![0] bcast_S3200000_S3200000x1_0 gI (ix2 e 0) = gI (ix1 e) :=
  broadcastInDim_apply _ bcast_S3200000_S3200000x1_0 gI (ix2 e 0) (ix1 e) (fun a => match a with
    | ⟨0, _⟩ => by show e.val = if (3200000 : Nat) = 1 then 0 else e.val; rw [if_neg (by decide)])

/-- A constant column index, splat over the edges and written as a one-column array, read at row `e`. -/
theorem r_const_col_apply (c : BitVec 32) (e : Fin 3200000) :
    broadcastInDim S3200000x1 ![0] bcast_S3200000_S3200000x1_0
      (id (broadcastInDim S3200000 ![] bcast_S_S3200000 (constantI S_ 32 c))) (ix2 e 0) = c :=
  (broadcastInDim_apply _ bcast_S3200000_S3200000x1_0 _ (ix2 e 0) (ix1 e) (fun a => match a with
    | ⟨0, _⟩ => by show e.val = if (3200000 : Nat) = 1 then 0 else e.val; rw [if_neg (by decide)])).trans rfl

/-- Two one-column arrays side by side: column 0 of the result is the first array. -/
theorem r_concat_col0 (A B : IVec S3200000x1 32) (e : Fin 3200000) :
    concatenate S3200000x2 1 [⟨S3200000x1, A⟩, ⟨S3200000x1, B⟩] concatenates_S3200000x1_S3200000x1_S3200000x2_d1 (ix2 e 0)
      = A (ix2 e 0) :=
  concatenate_apply_piece (1 : Fin S3200000x2.rank) [⟨S3200000x1, A⟩, ⟨S3200000x1, B⟩]
    concatenates_S3200000x1_S3200000x1_S3200000x2_d1 (ix2 e 0) 0 (by show (0 : Nat) < 2; omega) S3200000x1 A rfl rfl 0 rfl (ix2 e 0)
    (fun b hb => match b, hb with
      | ⟨0, _⟩, _ => rfl
      | ⟨1, _⟩, hb => absurd rfl hb)
    (by show 0 + 0 = 0; rfl)

/-- Two one-column arrays side by side: column 1 of the result is the second array. -/
theorem r_concat_col1 (A B : IVec S3200000x1 32) (e : Fin 3200000) :
    concatenate S3200000x2 1 [⟨S3200000x1, A⟩, ⟨S3200000x1, B⟩] concatenates_S3200000x1_S3200000x1_S3200000x2_d1 (ix2 e 1)
      = B (ix2 e 0) :=
  concatenate_apply_piece (1 : Fin S3200000x2.rank) [⟨S3200000x1, A⟩, ⟨S3200000x1, B⟩]
    concatenates_S3200000x1_S3200000x1_S3200000x2_d1 (ix2 e 1) 1 (by show (1 : Nat) < 2; omega) S3200000x1 B rfl rfl 1 rfl (ix2 e 0)
    (fun b hb => match b, hb with
      | ⟨0, _⟩, _ => rfl
      | ⟨1, _⟩, hb => absurd rfl hb)
    (by show 1 + 0 = 1; rfl)

/-- The single-element gather at edge `e`, for any start-index array whose row `e` is `(g, c)`: the node array at
    row `g` clamped into `[0, 99999]` and column `c` clamped into `[0, 3]`. -/
theorem point_gather_of_idx (a0 : FVec Ideal S100000x4 .f32) (idx : IVec S3200000x2 32) (e : Fin 3200000)
    (g c : BitVec 32) (k : Fin 4) (h0 : idx (ix2 e 0) = g) (h1 : idx (ix2 e 1) = c) (hc : min c.toInt.toNat 3 = k.val) :
    Host.gather gather_S100000x4_S3200000x2_S3200000_n_01_n_n_01_1_11 a0 idx (ix1 e)
      = a0 (ix2 (⟨min g.toInt.toNat 99999, by omega⟩ : Fin 100000) k) := by
  subst h0 h1
  -- the program's dimension numbers are the single-element gather's
  have hrec : gather_S100000x4_S3200000x2_S3200000_n_01_n_n_01_1_11
      = pointGatherDims 100000 4 3200000 gather_S100000x4_S3200000x2_S3200000_n_01_n_n_01_1_11_wf := rfl
  rw [hrec]
  refine (gather_point_apply (by decide) (by decide) gather_S100000x4_S3200000x2_S3200000_n_01_n_n_01_1_11_wf a0 idx e).trans
    (congrArg a0 ?_)
  exact congrArg₂ (ix2 (n0 := 100000) (n1 := 4)) (Fin.ext rfl) (Fin.ext hc)

/-- THE REFERENCE'S GATHER AT EDGE `e` with the constant column index `c`, whose clamped value is `k`. -/
theorem ref_gather_apply (a0 : FVec Ideal S100000x4 .f32) (gI : IVec S3200000 32) (c : BitVec 32) (k : Fin 4)
    (hc : min c.toInt.toNat 3 = k.val) (e : Fin 3200000) :
    Host.gather gather_S100000x4_S3200000x2_S3200000_n_01_n_n_01_1_11 a0
      (concatenate S3200000x2 1
        [⟨S3200000x1, broadcastInDim S3200000x1 ![0] bcast_S3200000_S3200000x1_0 gI⟩,
         ⟨S3200000x1, broadcastInDim S3200000x1 ![0] bcast_S3200000_S3200000x1_0
            (id (broadcastInDim S3200000 ![] bcast_S_S3200000 (constantI S_ 32 c)))⟩]
        concatenates_S3200000x1_S3200000x1_S3200000x2_d1) (ix1 e)
      = a0 (ix2 (row gI e) k) :=
  point_gather_of_idx a0 _ e (gI (ix1 e)) c k
    ((r_concat_col0 _ _ e).trans (r_bcast_apply gI e)) ((r_concat_col1 _ _ e).trans (r_const_col_apply c e)) hc

/-- Column index 0: the reference reads x at the clamped source row. -/
theorem ref_gather0_apply (a0 : FVec Ideal S100000x4 .f32) (gI : IVec S3200000 32) (e : Fin 3200000) :
    Host.gather gather_S100000x4_S3200000x2_S3200000_n_01_n_n_01_1_11 a0
      (concatenate S3200000x2 1
        [⟨S3200000x1, broadcastInDim S3200000x1 ![0] bcast_S3200000_S3200000x1_0 gI⟩,
         ⟨S3200000x1, broadcastInDim S3200000x1 ![0] bcast_S3200000_S3200000x1_0
            (id (broadcastInDim S3200000 ![] bcast_S_S3200000 (constantI S_ 32 0#32)))⟩]
        concatenates_S3200000x1_S3200000x1_S3200000x2_d1) (ix1 e)
      = a0 (ix2 (row gI e) 0) :=
  ref_gather_apply a0 gI 0#32 0 (by decide) e

/-- Column index 1: the reference reads y at the clamped source row. -/
theorem ref_gather1_apply (a0 : FVec Ideal S100000x4 .f32) (gI : IVec S3200000 32) (e : Fin 3200000) :
    Host.gather gather_S100000x4_S3200000x2_S3200000_n_01_n_n_01_1_11 a0
      (concatenate S3200000x2 1
        [⟨S3200000x1, broadcastInDim S3200000x1 ![0] bcast_S3200000_S3200000x1_0 gI⟩,
         ⟨S3200000x1, broadcastInDim S3200000x1 ![0] bcast_S3200000_S3200000x1_0
            (id (broadcastInDim S3200000 ![] bcast_S_S3200000 (constantI S_ 32 1#32)))⟩]
        concatenates_S3200000x1_S3200000x1_S3200000x2_d1) (ix1 e)
      = a0 (ix2 (row gI e) 1) :=
  ref_gather_apply a0 gI 1#32 1 (by decide) e

end Reference

end Cert.EdgeReads

end
-- ==== Proof.NodeFlowK.lean ====
/-
  THE KERNEL PROGRAM'S NODE FLOW READ AT A NODE, and the edge parameters' columns read at an edge.

  After the region the host stacks the two flattened edge-flow tiles as the columns of an [E, 2] array and adds row e
  of it into node (source e) of a zero [N, 2] accumulator and into node (effective target e) of a zero [N + 1, 2] one,
  the effective target being the target, or the extra row N on a self-loop. An accumulating scatter into a zero
  operand leaves at (n, j) the sum of column j over the edges whose endpoint, read signed, is n. The first N rows of
  the second accumulator are added to the first; column 0 of the sum is the active flow into every node, column 1 the
  reactive one.
-/
import proofs.«122857_j38010460570139_2_alg».proof.Proof.KernelTerm
import proofs.«122857_j38010460570139_2_alg».proof.Proof.LibGatherScatter
import Idealize.ShloMosaic.Lib.Pipeline.Value
import Idealize.ShloMosaic.Lib.ValueIdx
import Idealize.ShloMosaic.PureOps.Ideal.Laws

noncomputable section

open scoped BigOperators

namespace Cert.NodeFlowK

open Idealize.ShloMosaic Idealize.ShloMosaic.ValueIdx Idealize.ShloMosaic.GatherScatter

/-! ## Sums over a filtered finite type, abstractly -/

/-- Two filtered sums over a finite type agree when the predicates agree and the summands agree, pointwise. -/
theorem sum_filter_congr {E : Type} [Fintype E] {p q : E → Prop} [DecidablePred p] [DecidablePred q]
    (hpq : ∀ e, p e ↔ q e) (f g : E → EReal) (hfg : ∀ e, f e = g e) :
    ∑ e ∈ Finset.univ.filter p, f e = ∑ e ∈ Finset.univ.filter q, g e := by
  rw [Finset.filter_congr (fun e _ => hpq e)]
  exact Finset.sum_congr rfl (fun e _ => hfg e)

/-- A select on an equality test of two words is an if on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [hb, h]

section Kernel
open Cert.KernelIdeal Cert.KernelIdeal.Facts₀ Cert.KernelTerm

/-! ## Layout reads -/

/-- A vector over the edges as a one-column array, read at row `e`. -/
theorem bcastCol_apply {α : Type} (v : S3200000.Idx → α) (e : Fin 3200000) :
    broadcastInDim S3200000x1 ![0] bcast_S3200000_S3200000x1_0 v (ix2 e 0) = v (ix1 e) :=
  broadcastInDim_apply _ bcast_S3200000_S3200000x1_0 v (ix2 e 0) (ix1 e) (fun a => match a with
    | ⟨0, _⟩ => by show e.val = if (3200000 : Nat) = 1 then 0 else e.val; rw [if_neg (by decide)])

/-- An endpoint vector as a one-column index array, read at row `e`. -/
theorem asIndexK_apply (v : IVec S3200000 32) (e : Fin 3200000) : asIndexK v (ix2 e 0) = v (ix1 e) := by
  unfold Cert.KernelTerm.asIndexK
  exact bcastCol_apply v e

/-- Two one-column arrays side by side: column 0 of the result is the first array. -/
theorem concat_col0 {α : Type} (A B : S3200000x1.Idx → α) (e : Fin 3200000) :
    concatenate S3200000x2 1 [⟨S3200000x1, A⟩, ⟨S3200000x1, B⟩] concatenates_S3200000x1_S3200000x1_S3200000x2_d1 (ix2 e 0)
      = A (ix2 e 0) :=
  concatenate_apply_piece (1 : Fin S3200000x2.rank) [⟨S3200000x1, A⟩, ⟨S3200000x1, B⟩]
    concatenates_S3200000x1_S3200000x1_S3200000x2_d1 (ix2 e 0) 0 (by show (0 : Nat) < 2; omega) S3200000x1 A rfl rfl 0 rfl (ix2 e 0)
    (fun b hb => match b, hb with
      | ⟨0, _⟩, _ => rfl
      | ⟨1, _⟩, hb => absurd rfl hb)
    (by show 0 + 0 = 0; rfl)

/-- Two one-column arrays side by side: column 1 of the result is the second array. -/
theorem concat_col1 {α : Type} (A B : S3200000x1.Idx → α) (e : Fin 3200000) :
    concatenate S3200000x2 1 [⟨S3200000x1, A⟩, ⟨S3200000x1, B⟩] concatenates_S3200000x1_S3200000x1_S3200000x2_d1 (ix2 e 1)
      = B (ix2 e 0) :=
  concatenate_apply_piece (1 : Fin S3200000x2.rank) [⟨S3200000x1, A⟩, ⟨S3200000x1, B⟩]
    concatenates_S3200000x1_S3200000x1_S3200000x2_d1 (ix2 e 1) 1 (by show (1 : Nat) < 2; omega) S3200000x1 B rfl rfl 1 rfl (ix2 e 0)
    (fun b hb => match b, hb with
      | ⟨0, _⟩, _ => rfl
      | ⟨1, _⟩, hb => absurd rfl hb)
    (by show 1 + 0 = 1; rfl)

/-- Column 0 of the stacked edge flows is the first tile, flattened. -/
theorem stackPQ_col0 (P Q : FVec Ideal S25000x128 .f32) (e : Fin 3200000) :
    stackPQ (F := Ideal) P Q (ix2 e 0) = untile P (ix1 e) := by
  unfold Cert.KernelTerm.stackPQ
  exact (concat_col0 _ _ e).trans (bcastCol_apply _ e)

/-- Column 1 of the stacked edge flows is the second tile, flattened. -/
theorem stackPQ_col1 (P Q : FVec Ideal S25000x128 .f32) (e : Fin 3200000) :
    stackPQ (F := Ideal) P Q (ix2 e 1) = untile Q (ix1 e) := by
  unfold Cert.KernelTerm.stackPQ
  exact (concat_col1 _ _ e).trans (bcastCol_apply _ e)

/-! ## The effective target -/

/-- The effective target of edge `e`, read signed: the extra row 100000 on a self-loop, else the target. -/
theorem dstEff_toInt (a1 : IVec S2x3200000 32) (e : Fin 3200000) :
    (dstEff a1 (ix1 e)).toInt
      = if srcK a1 (ix1 e) = dstK a1 (ix1 e) then (100000 : Int) else (dstK a1 (ix1 e)).toInt := by
  have h : dstEff a1 (ix1 e)
      = Scalar.select (IntOp.cmpi .eq (srcK a1 (ix1 e)) (dstK a1 (ix1 e))) (100000#32) (dstK a1 (ix1 e)) := rfl
  have hc : (100000#32 : BitVec 32).toInt = 100000 := by decide
  rw [h, select_cmpi_eq, apply_ite BitVec.toInt, hc]

/-! ## The two scatters into zero accumulators -/

/-- The zero [100000, 2] accumulator is 0 everywhere. -/
theorem zerosN2_apply (i : S100000x2.Idx) :
    broadcastInDim S100000x2 ![] bcast_S_S100000x2 (constant (F := Ideal) S_ .f32 0x00000000#32) i = (0 : EReal) := by
  rw [broadcastInDim_apply _ _ _ i (fun a => a.elim0) (fun a => a.elim0), constant_apply, Ideal.ofBits_zero_f32]

/-- The zero [100001, 2] accumulator is 0 everywhere. -/
theorem zerosN12_apply (i : S100001x2.Idx) :
    broadcastInDim S100001x2 ![] bcast_S_S100001x2 (constant (F := Ideal) S_ .f32 0x00000000#32) i = (0 : EReal) := by
  rw [broadcastInDim_apply _ _ _ i (fun a => a.elim0) (fun a => a.elim0), constant_apply, Ideal.ofBits_zero_f32]

/-- The program's accumulating scatter into [100000, 2], at the extended reals, is the row scatter of the general
    lemma: the same dimension numbers, and the host's accumulation is the sum over the updates landing on an index. -/
theorem scatterN_eq (x : FVec Ideal S100000x2 .f32) (idx : IVec S3200000x1 32) (U : FVec Ideal S3200000x2 .f32) :
    Host.scatterAdd scatter_S100000x2_S3200000x1_S3200000x2_1_0_0_1 x idx U
      = Ideal.hostScatterAdd (rowScatterDims 100000 2 3200000 scatter_S100000x2_S3200000x1_S3200000x2_1_0_0_1_wf) x idx U := rfl

/-- The same for the accumulator with the extra row, [100001, 2]. -/
theorem scatterN1_eq (x : FVec Ideal S100001x2 .f32) (idx : IVec S3200000x1 32) (U : FVec Ideal S3200000x2 .f32) :
    Host.scatterAdd scatter_S100001x2_S3200000x1_S3200000x2_1_0_0_1 x idx U
      = Ideal.hostScatterAdd (rowScatterDims 100001 2 3200000 scatter_S100001x2_S3200000x1_S3200000x2_1_0_0_1_wf) x idx U := rfl

/-- The endpoint test under a sum, through the one-column index array. -/
theorem endpoint_iff (v : IVec S3200000 32) (m : Int) (e : Fin 3200000) :
    (asIndexK v (ix2 e 0)).toInt = m ↔ (v (ix1 e)).toInt = m :=
  Iff.of_eq (congrArg (fun w : BitVec 32 => w.toInt = m) (asIndexK_apply v e))

/-- Adding the rows of `U` into a zero [100000, 2] accumulator along the endpoint vector `v`: at (n, j), the sum of
    column j of `U` over the edges whose endpoint, read signed, is n. -/
theorem scatterN_apply (v : IVec S3200000 32) (U : FVec Ideal S3200000x2 .f32) (n : Fin 100000) (j : Fin 2) :
    Host.scatterAdd scatter_S100000x2_S3200000x1_S3200000x2_1_0_0_1
        (broadcastInDim S100000x2 ![] bcast_S_S100000x2 (constant (F := Ideal) S_ .f32 0x00000000#32)) (asIndexK v) U (ix2 n j)
      = (0 : EReal) + ∑ e ∈ Finset.univ.filter (fun e : Fin 3200000 => (v (ix1 e)).toInt = (n.val : Int)), U (ix2 e j) :=
  (congrFun (scatterN_eq _ (asIndexK v) U) (ix2 n j)).trans
    ((scatterAdd_row_apply scatter_S100000x2_S3200000x1_S3200000x2_1_0_0_1_wf _ (asIndexK v) U n j).trans
      (congrArg₂ (fun x y : EReal => x + y) (zerosN2_apply (ix2 n j))
        (sum_filter_congr (fun e => endpoint_iff v (n.val : Int) e) _ _ (fun e => rfl))))

/-- The same into a zero [100001, 2] accumulator. -/
theorem scatterN1_apply (v : IVec S3200000 32) (U : FVec Ideal S3200000x2 .f32) (n : Fin 100001) (j : Fin 2) :
    Host.scatterAdd scatter_S100001x2_S3200000x1_S3200000x2_1_0_0_1
        (broadcastInDim S100001x2 ![] bcast_S_S100001x2 (constant (F := Ideal) S_ .f32 0x00000000#32)) (asIndexK v) U (ix2 n j)
      = (0 : EReal) + ∑ e ∈ Finset.univ.filter (fun e : Fin 3200000 => (v (ix1 e)).toInt = (n.val : Int)), U (ix2 e j) :=
  (congrFun (scatterN1_eq _ (asIndexK v) U) (ix2 n j)).trans
    ((scatterAdd_row_apply scatter_S100001x2_S3200000x1_S3200000x2_1_0_0_1_wf _ (asIndexK v) U n j).trans
      (congrArg₂ (fun x y : EReal => x + y) (zerosN12_apply (ix2 n j))
        (sum_filter_congr (fun e => endpoint_iff v (n.val : Int) e) _ _ (fun e => rfl))))

/-! ## The node flows -/

/-- Both flows into node `n`, column `j`: along the sources, plus along the effective targets. -/
theorem nodeFlow2_apply (a1 : IVec S2x3200000 32) (P Q : FVec Ideal S25000x128 .f32) (n : Fin 100000) (j : Fin 2) :
    nodeFlow2 (F := Ideal) a1 P Q (ix2 n j)
      = ((0 : EReal) + ∑ e ∈ Finset.univ.filter (fun e : Fin 3200000 => (srcK a1 (ix1 e)).toInt = (n.val : Int)),
            stackPQ (F := Ideal) P Q (ix2 e j))
        + ((0 : EReal) + ∑ e ∈ Finset.univ.filter (fun e : Fin 3200000 => (dstEff a1 (ix1 e)).toInt = (n.val : Int)),
            stackPQ (F := Ideal) P Q (ix2 e j)) := by
  refine (addf_apply _ _ (ix2 n j)).trans ?_
  refine congrArg₂ (fun x y : EReal => x + y) (scatterN_apply _ _ n j) ?_
  -- the first 100000 rows of the second accumulator: row n of the slice is row n of the operand
  refine (extractStridedSlice_apply ![0, 0] _ slices_S100001x2_S100000x2_0_0 (ix2 n j)
    (ix2 (⟨n.val, by omega⟩ : Fin 100001) j) (fun a => match a with
      | ⟨0, _⟩ => by show n.val = 0 + n.val; omega
      | ⟨1, _⟩ => by show j.val = 0 + j.val; omega)).trans ?_
  exact scatterN1_apply _ _ (⟨n.val, by omega⟩ : Fin 100001) j

/-- THE ACTIVE FLOW INTO NODE `n`. -/
theorem pK_apply (a1 : IVec S2x3200000 32) (P Q : FVec Ideal S25000x128 .f32) (n : Fin 100000) :
    pK (F := Ideal) a1 P Q (ix1 n)
      = ((0 : EReal) + ∑ e ∈ Finset.univ.filter (fun e : Fin 3200000 => (srcK a1 (ix1 e)).toInt = (n.val : Int)),
            untile P (ix1 e))
        + ((0 : EReal) + ∑ e ∈ Finset.univ.filter (fun e : Fin 3200000 => (dstEff a1 (ix1 e)).toInt = (n.val : Int)),
            untile P (ix1 e)) := by
  refine (shapeCast_apply _ shapeCasts_S100000x1_S100000 (ix1 n) (ix2 n 0) ?_).trans ?_
  · rewrite [Shape.rowMajor_val_two, Shape.rowMajor_val_one]
    show n.val * 1 + 0 = n.val
    omega
  refine (extractStridedSlice_apply ![0, 0] _ slices_S100000x2_S100000x1_0_0 (ix2 n 0) (ix2 n 0) (fun a => match a with
      | ⟨0, _⟩ => by show n.val = 0 + n.val; omega
      | ⟨1, _⟩ => by show (0 : Nat) = 0 + 0; omega)).trans ?_
  refine (nodeFlow2_apply a1 P Q n 0).trans ?_
  exact congrArg₂ (fun x y : EReal => x + y)
    (congrArg (fun s => (0 : EReal) + s) (sum_filter_congr (fun e => Iff.rfl) _ _ (fun e => stackPQ_col0 P Q e)))
    (congrArg (fun s => (0 : EReal) + s) (sum_filter_congr (fun e => Iff.rfl) _ _ (fun e => stackPQ_col0 P Q e)))

/-- THE REACTIVE FLOW INTO NODE `n`. -/
theorem qK_apply (a1 : IVec S2x3200000 32) (P Q : FVec Ideal S25000x128 .f32) (n : Fin 100000) :
    qK (F := Ideal) a1 P Q (ix1 n)
      = ((0 : EReal) + ∑ e ∈ Finset.univ.filter (fun e : Fin 3200000 => (srcK a1 (ix1 e)).toInt = (n.val : Int)),
            untile Q (ix1 e))
        + ((0 : EReal) + ∑ e ∈ Finset.univ.filter (fun e : Fin 3200000 => (dstEff a1 (ix1 e)).toInt = (n.val : Int)),
            untile Q (ix1 e)) := by
  refine (shapeCast_apply _ shapeCasts_S100000x1_S100000 (ix1 n) (ix2 n 0) ?_).trans ?_
  · rewrite [Shape.rowMajor_val_two, Shape.rowMajor_val_one]
    show n.val * 1 + 0 = n.val
    omega
  refine (extractStridedSlice_apply ![0, 1] _ slices_S100000x2_S100000x1_0_1 (ix2 n 0) (ix2 n 1) (fun a => match a with
      | ⟨0, _⟩ => by show n.val = 0 + n.val; omega
      | ⟨1, _⟩ => by show (1 : Nat) = 1 + 0; omega)).trans ?_
  refine (nodeFlow2_apply a1 P Q n 1).trans ?_
  exact congrArg₂ (fun x y : EReal => x + y)
    (congrArg (fun s => (0 : EReal) + s) (sum_filter_congr (fun e => Iff.rfl) _ _ (fun e => stackPQ_col1 P Q e)))
    (congrArg (fun s => (0 : EReal) + s) (sum_filter_congr (fun e => Iff.rfl) _ _ (fun e => stackPQ_col1 P Q e)))

/-! ## The edge parameters' columns, kernel program -/

/-- Column 0 of the edge parameters, read at edge `e`. -/
theorem parK0_apply (a3 : FVec Ideal S3200000x2 .f32) (e : Fin 3200000) : parK0 (F := Ideal) a3 (ix1 e) = a3 (ix2 e 0) := by
  unfold Cert.KernelTerm.parK0
  refine (shapeCast_apply _ shapeCasts_S3200000x1_S3200000 (ix1 e) (ix2 e 0) ?_).trans ?_
  · rewrite [Shape.rowMajor_val_two, Shape.rowMajor_val_one]
    show e.val * 1 + 0 = e.val
    omega
  · exact extractStridedSlice_apply ![0, 0] a3 slices_S3200000x2_S3200000x1_0_0 (ix2 e 0) (ix2 e 0) (fun a => match a with
      | ⟨0, _⟩ => by show e.val = 0 + e.val; omega
      | ⟨1, _⟩ => by show (0 : Nat) = 0 + 0; omega)

/-- Column 1 of the edge parameters, read at edge `e`. -/
theorem parK1_apply (a3 : FVec Ideal S3200000x2 .f32) (e : Fin 3200000) : parK1 (F := Ideal) a3 (ix1 e) = a3 (ix2 e 1) := by
  unfold Cert.KernelTerm.parK1
  refine (shapeCast_apply _ shapeCasts_S3200000x1_S3200000 (ix1 e) (ix2 e 0) ?_).trans ?_
  · rewrite [Shape.rowMajor_val_two, Shape.rowMajor_val_one]
    show e.val * 1 + 0 = e.val
    omega
  · exact extractStridedSlice_apply ![0, 1] a3 slices_S3200000x2_S3200000x1_0_1 (ix2 e 0) (ix2 e 1) (fun a => match a with
      | ⟨0, _⟩ => by show e.val = 0 + e.val; omega
      | ⟨1, _⟩ => by show (1 : Nat) = 1 + 0; omega)

end Kernel

/-! ## The edge parameters' columns and the shift ε, reference program -/

section Reference
open Cert.ReferenceIdeal Cert.ReferenceIdeal.Facts₀ Cert.Loss

/-- Column 0 of the edge parameters, read at edge `e`. -/
theorem par0_apply (a3 : FVec Ideal S3200000x2 .f32) (e : Fin 3200000) : par0 (F := Ideal) a3 (ix1 e) = a3 (ix2 e 0) := by
  unfold Cert.Loss.par0
  refine (shapeCast_apply _ shapeCasts_S3200000x1_S3200000 (ix1 e) (ix2 e 0) ?_).trans ?_
  · rewrite [Shape.rowMajor_val_two, Shape.rowMajor_val_one]
    show e.val * 1 + 0 = e.val
    omega
  · exact extractStridedSlice_apply ![0, 0] a3 slices_S3200000x2_S3200000x1_0_0 (ix2 e 0) (ix2 e 0) (fun a => match a with
      | ⟨0, _⟩ => by show e.val = 0 + e.val; omega
      | ⟨1, _⟩ => by show (0 : Nat) = 0 + 0; omega)

/-- Column 1 of the edge parameters, read at edge `e`. -/
theorem par1_apply (a3 : FVec Ideal S3200000x2 .f32) (e : Fin 3200000) : par1 (F := Ideal) a3 (ix1 e) = a3 (ix2 e 1) := by
  unfold Cert.Loss.par1
  refine (shapeCast_apply _ shapeCasts_S3200000x1_S3200000 (ix1 e) (ix2 e 0) ?_).trans ?_
  · rewrite [Shape.rowMajor_val_two, Shape.rowMajor_val_one]
    show e.val * 1 + 0 = e.val
    omega
  · exact extractStridedSlice_apply ![0, 1] a3 slices_S3200000x2_S3200000x1_0_1 (ix2 e 0) (ix2 e 1) (fun a => match a with
      | ⟨0, _⟩ => by show e.val = 0 + e.val; omega
      | ⟨1, _⟩ => by show (1 : Nat) = 1 + 0; omega)

/-- The shift ε on every edge is the extended real the f32 pattern 0x358637BD denotes. -/
theorem epsV_apply (i : S3200000.Idx) : epsV (F := Ideal) i = Ideal.ofBits .f32 0x358637BD#32 := rfl

end Reference

end Cert.NodeFlowK

end
-- ==== Proof.NodeFlowR.lean ====
/-
  THE REFERENCE'S NODE FLOW READ AT A NODE. Adding edge values f into a zero vector along an endpoint vector leaves at
  node n the sum of f over the edges whose endpoint, read signed, is n (an endpoint outside [0, 100000) is dropped). The
  reference does it twice — along the sources with f itself, along the targets with f set to 0 on the self-loops — and
  adds the two.
-/
import proofs.«122857_j38010460570139_2_alg».proof.Proof.Loss
import proofs.«122857_j38010460570139_2_alg».proof.Proof.LibGatherScatter
import Idealize.ShloMosaic.Lib.Pipeline.Value
import Idealize.ShloMosaic.Lib.ValueIdx
import Idealize.ShloMosaic.PureOps.Ideal.Laws

noncomputable section

open scoped BigOperators

namespace Cert.NodeFlowR

open Idealize.ShloMosaic Idealize.ShloMosaic.ValueIdx Idealize.ShloMosaic.GatherScatter
open Cert.ReferenceIdeal Cert.ReferenceIdeal.Facts₀

/-- A select on an equality test of two words is an if on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have : (x == y) = false := by simpa using h
    simp [this, h]

/-- Two sums over filtered edges agree when the filters agree edge by edge and the summands do (stated over any finite
    edge type: nothing here looks inside the edge set). -/
theorem sum_filter_congr {E : Type} [Fintype E] {p q : E → Prop} [DecidablePred p] [DecidablePred q]
    (hpq : ∀ e, p e ↔ q e) (f g : E → EReal) (hfg : ∀ e, f e = g e) :
    ∑ e ∈ Finset.univ.filter p, f e = ∑ e ∈ Finset.univ.filter q, g e := by
  rw [Finset.filter_congr (fun e _ => hpq e)]
  exact Finset.sum_congr rfl (fun e _ => hfg e)

/-- An endpoint vector as a one-column index array, read at row e. -/
theorem asIndex_apply (v : IVec S3200000 32) (e : Fin 3200000) : Cert.Loss.asIndex v (ix2 e 0) = v (ix1 e) := by
  unfold Cert.Loss.asIndex
  refine broadcastInDim_apply _ _ v (ix2 e 0) (ix1 e) (fun a => ?_)
  match a with
  | ⟨0, _⟩ => rfl

/-- The zero vector over the nodes is 0 at every node. -/
theorem zerosN_apply (i : S100000.Idx) :
    broadcastInDim S100000 ![] bcast_S_S100000 (constant (F := Ideal) S_ .f32 0x00000000#32) i = (0 : EReal) := by
  rw [broadcastInDim_apply _ _ _ i (fun a => a.elim0) (fun a => a.elim0), constant_apply, Ideal.ofBits_zero_f32]

/-- The zero vector over the edges (the value a self-loop contributes along its target) is 0 at every edge. -/
theorem zerosE_apply (i : S3200000.Idx) :
    broadcastInDim S3200000 ![] bcast_S_S3200000 (id (constant (F := Ideal) S_ .f32 0x00000000#32)) i = (0 : EReal) := by
  rw [broadcastInDim_apply _ _ _ i (fun a => a.elim0) (fun a => a.elim0)]
  show constant (F := Ideal) S_ .f32 0x00000000#32 _ = 0
  rw [constant_apply, Ideal.ofBits_zero_f32]

/-- The program's flat scatter, as a function of its three operands, is the exact accumulating scatter of the extended
    reals at the library's record with the same dimension numbers (a statement with no index and no sum in it). -/
theorem scatterV_eq (x : FVec Ideal S100000 .f32) (idx : IVec S3200000x1 32) (U : FVec Ideal S3200000 .f32) :
    Host.scatterAdd scatter_S100000_S3200000x1_S3200000_n_0_0_1 x idx U
      = Ideal.hostScatterAdd (vecScatterDims 100000 3200000 scatter_S100000_S3200000x1_S3200000_n_0_0_1_wf) x idx U := rfl

/-- An edge's endpoint read off the one-column index array is the endpoint vector's entry. -/
theorem endpoint_iff (v : IVec S3200000 32) (k : Int) (e : Fin 3200000) :
    (Cert.Loss.asIndex v (ix2 e 0)).toInt = k ↔ (v (ix1 e)).toInt = k :=
  Iff.of_eq (congrArg (fun w : BitVec 32 => w.toInt = k) (asIndex_apply v e))

/-- Adding edge values g along an endpoint vector v into the zero vector leaves, at node n, the sum of g over the edges
    whose endpoint, read signed, is n. -/
theorem scatter_along (v : IVec S3200000 32) (g : FVec Ideal S3200000 .f32) (n : Fin 100000) :
    Host.scatterAdd scatter_S100000_S3200000x1_S3200000_n_0_0_1
        (broadcastInDim S100000 ![] bcast_S_S100000 (constant (F := Ideal) S_ .f32 0x00000000#32)) (Cert.Loss.asIndex v) g (ix1 n)
      = (0 : EReal) + ∑ e ∈ Finset.univ.filter (fun e : Fin 3200000 => (v (ix1 e)).toInt = (n.val : Int)), g (ix1 e) :=
  (congrFun (scatterV_eq _ (Cert.Loss.asIndex v) g) (ix1 n)).trans
    ((scatterAdd_vec_apply scatter_S100000_S3200000x1_S3200000_n_0_0_1_wf _ (Cert.Loss.asIndex v) g n).trans
      (congrArg₂ (fun x y : EReal => x + y) (zerosN_apply (ix1 n))
        (sum_filter_congr (fun e => endpoint_iff v (n.val : Int) e) _ _ (fun e => rfl))))

/-- On a self-loop the reference adds 0 along the target, elsewhere the edge's value. -/
theorem offLoops_apply (a1 : IVec S2x3200000 32) (f : FVec Ideal S3200000 .f32) (e : Fin 3200000) :
    select (Cert.Loss.selfLoop a1) (broadcastInDim S3200000 ![] bcast_S_S3200000 (id (constant (F := Ideal) S_ .f32 0x00000000#32))) f (ix1 e)
      = if Cert.Loss.srcV a1 (ix1 e) = Cert.Loss.dstV a1 (ix1 e) then (0 : EReal) else f (ix1 e) := by
  rw [select_apply]
  unfold Cert.Loss.selfLoop
  show Scalar.select (IntOp.cmpi .eq (Cert.Loss.srcV a1 (ix1 e)) (Cert.Loss.dstV a1 (ix1 e))) _ _ = _
  rw [select_cmpi_eq, zerosE_apply]

/-- THE REFERENCE'S NODE FLOW AT NODE n: the flows of the edges leaving n, plus the flows of the edges entering n with 0
    on the self-loops. -/
theorem nodeFlowR_apply (a1 : IVec S2x3200000 32) (f : FVec Ideal S3200000 .f32) (n : Fin 100000) :
    Cert.Loss.nodeFlowR (F := Ideal) a1 f (ix1 n)
      = ((0 : EReal) + ∑ e ∈ Finset.univ.filter (fun e : Fin 3200000 => (Cert.Loss.srcV a1 (ix1 e)).toInt = (n.val : Int)), f (ix1 e))
        + ((0 : EReal) + ∑ e ∈ Finset.univ.filter (fun e : Fin 3200000 => (Cert.Loss.dstV a1 (ix1 e)).toInt = (n.val : Int)),
            (if Cert.Loss.srcV a1 (ix1 e) = Cert.Loss.dstV a1 (ix1 e) then (0 : EReal) else f (ix1 e))) := by
  -- the node flow is, by its definition, the elementwise sum of the two scatters
  refine (addf_apply _ _ (ix1 n)).trans ?_
  refine congrArg₂ (fun x y : EReal => x + y) (scatter_along _ _ n) ?_
  refine (scatter_along _ _ n).trans ?_
  exact congrArg (fun s : EReal => (0 : EReal) + s)
    (sum_filter_congr (fun _ => Iff.rfl) _ _ (fun e => offLoops_apply a1 f e))

end Cert.NodeFlowR

end
-- ==== Proof.EdgeLaw.lean ====
/-
  The two laws that join the kernel's edge flows to the reference's, on the extended reals.

  * The flow on one edge. With a = the source node's first feature, b its second, the squared voltage magnitude is
    x = a·a + b·b, a non-negative real, so √x·√x = x; with the edge's probability p real and the shifted edge
    parameter c a NON-ZERO real, a quotient by c is a product with 1/c, and (x·p)/c = (x/c)·p in ℝ. At c = 0 the two
    sides differ (0/0 against (x/0)·0), which is why the statement's domain keeps c away from zero.
  * The self-loop remap. Summing f over the edges whose REMAPPED target is i — the target, or the dummy segment N on a
    self-loop — is, for a real segment i ≠ N, summing over the edges whose target is i the value f, or 0 on a
    self-loop: a self-loop's remapped target is N ≠ i, so it is in neither sum's support.
-/
import Idealize.ShloMosaic.PureOps.Ideal

noncomputable section

open scoped BigOperators

namespace Cert.EdgeLaw

open Idealize.ShloMosaic

/-- The squared magnitude of a real pair is a non-negative real, so its square root squares back to it. -/
theorem sqrt_mul_self_sq (a b : ℝ) :
    Ideal.sqrt ((a : EReal) * a + (b : EReal) * b) * Ideal.sqrt ((a : EReal) * a + (b : EReal) * b)
      = (a : EReal) * a + (b : EReal) * b := by
  have hx : (0 : ℝ) ≤ a * a + b * b := add_nonneg (mul_self_nonneg a) (mul_self_nonneg b)
  have hcoe : (a : EReal) * a + (b : EReal) * b = ((a * a + b * b : ℝ) : EReal) := by
    rw [EReal.coe_add, EReal.coe_mul, EReal.coe_mul]
  rw [hcoe, Ideal.sqrt_coe, if_neg (not_lt.mpr hx), ← EReal.coe_mul, Real.mul_self_sqrt hx]

/-- THE FLOW ON ONE EDGE: (x·p)/c = (√x·√x / c)·p for x = a·a + b·b, p real and c a non-zero real. -/
theorem edge_flow (a b p c : ℝ) (hc : c ≠ 0) :
    Ideal.div (((a : EReal) * a + (b : EReal) * b) * (p : EReal)) (c : EReal)
      = Ideal.div (Ideal.sqrt ((a : EReal) * a + (b : EReal) * b) * Ideal.sqrt ((a : EReal) * a + (b : EReal) * b)) (c : EReal)
          * (p : EReal) := by
  rw [sqrt_mul_self_sq, Ideal.div_coe hc, Ideal.div_coe hc]
  have hcoe : (a : EReal) * a + (b : EReal) * b = ((a * a + b * b : ℝ) : EReal) := by
    rw [EReal.coe_add, EReal.coe_mul, EReal.coe_mul]
  rw [hcoe, ← EReal.coe_mul, ← EReal.coe_mul, ← EReal.coe_mul, ← EReal.coe_mul]
  exact congrArg _ (by ring)

/-- THE SELF-LOOP REMAP: over a real segment i ≠ N, the sum of f over the edges remapped to i is the sum over the
    edges targeting i of f off the self-loops and 0 on them. -/
theorem remap_sum {E : Type} [Fintype E] (sl : E → Prop) [DecidablePred sl] (d : E → Int) (N i : Int) (hi : i ≠ N)
    (f : E → EReal) :
    ∑ e ∈ Finset.univ.filter (fun e => (if sl e then N else d e) = i), f e
      = ∑ e ∈ Finset.univ.filter (fun e => d e = i), (if sl e then (0 : EReal) else f e) := by
  rw [Finset.sum_filter, Finset.sum_filter]
  refine Finset.sum_congr rfl fun e _ => ?_
  by_cases h : sl e
  · simp only [h, if_true]
    rw [if_neg (fun hN => hi hN.symm)]
    split <;> rfl
  · simp only [h, if_false]

/-- THE FLOW ON ONE EDGE, for extended reals that ARE reals: with A, B the source node's two features, P the edge's
    probability, C its parameter and ε the shift all real and C + ε non-zero,
    ((A·A + B·B)·P) / (C + ε) = (√(A·A + B·B)·√(A·A + B·B) / (C + ε))·P. -/
theorem edge_flow_ereal (A B P C ε : EReal) (hA : ∃ r : ℝ, A = (r : EReal)) (hB : ∃ r : ℝ, B = (r : EReal))
    (hP : ∃ r : ℝ, P = (r : EReal)) (hC : ∃ r : ℝ, C = (r : EReal)) (hε : ∃ r : ℝ, ε = (r : EReal)) (hne : C + ε ≠ 0) :
    Ideal.div ((A * A + B * B) * P) (C + ε)
      = Ideal.div (Ideal.sqrt (A * A + B * B) * Ideal.sqrt (A * A + B * B)) (C + ε) * P := by
  obtain ⟨a, rfl⟩ := hA
  obtain ⟨b, rfl⟩ := hB
  obtain ⟨p, rfl⟩ := hP
  obtain ⟨c, rfl⟩ := hC
  obtain ⟨e, rfl⟩ := hε
  have hc : c + e ≠ 0 := fun h => hne (by rw [← EReal.coe_add, h, EReal.coe_zero])
  rw [← EReal.coe_add c e]
  exact edge_flow a b p (c + e) hc

/-- Two sums over filtered edges agree when the filters agree edge by edge and the summands do. -/
theorem sum_filter_congr {E : Type} [Fintype E] {p q : E → Prop} [DecidablePred p] [DecidablePred q]
    (hpq : ∀ e, p e ↔ q e) (f g : E → EReal) (hfg : ∀ e, f e = g e) :
    ∑ e ∈ Finset.univ.filter p, f e = ∑ e ∈ Finset.univ.filter q, g e := by
  rw [Finset.filter_congr (fun e _ => hpq e)]
  exact Finset.sum_congr rfl (fun e _ => hfg e)

/-- FROM ONE PROGRAM'S NODE FLOW TO THE OTHER'S, at a node n that is no dummy segment (n ≠ N). One program sums edge
    values f along the sources s and along the remapped targets dE (the target, or N on a self-loop); the other sums g
    along the same sources and, along the plain targets d, g off the self-loops and 0 on them. With f = g edge by edge
    the two are equal: the source sums term by term, the target sums by the self-loop remap. -/
theorem node_bridge {E : Type} [Fintype E] (s s' d dE : E → Int) (sl : E → Prop) [DecidablePred sl] (n N : Int) (hn : n ≠ N)
    (hs : ∀ e, s e = s' e) (hdE : ∀ e, dE e = if sl e then N else d e) (f g : E → EReal) (hfg : ∀ e, f e = g e) :
    ((0 : EReal) + ∑ e ∈ Finset.univ.filter (fun e => s e = n), f e) + ((0 : EReal) + ∑ e ∈ Finset.univ.filter (fun e => dE e = n), f e)
      = ((0 : EReal) + ∑ e ∈ Finset.univ.filter (fun e => s' e = n), g e)
        + ((0 : EReal) + ∑ e ∈ Finset.univ.filter (fun e => d e = n), (if sl e then (0 : EReal) else g e)) := by
  have h1 : ∑ e ∈ Finset.univ.filter (fun e => s e = n), f e = ∑ e ∈ Finset.univ.filter (fun e => s' e = n), g e :=
    sum_filter_congr (fun e => by rw [hs e]) f g hfg
  have h2 : ∑ e ∈ Finset.univ.filter (fun e => dE e = n), f e
      = ∑ e ∈ Finset.univ.filter (fun e => d e = n), (if sl e then (0 : EReal) else g e) := by
    rw [sum_filter_congr (q := fun e => (if sl e then N else d e) = n) (fun e => by rw [hdE e]) f f (fun _ => rfl),
      remap_sum sl d N n hn f]
    exact Finset.sum_congr rfl (fun e _ => by rw [hfg e])
  rw [h1, h2]

end Cert.EdgeLaw

end
-- ==== Proof.PreDecode.lean ====
/-
  The precondition `finite_inputs`, read back at the extended reals.

  The printed predicate is a conjunction of four `all`-reductions of one-bit arrays:
  |arg0| < +∞, |arg2| < +∞, |arg3| < +∞ elementwise, and arg3 + ε ≠ 0 elementwise
  (ε the f32 constant 0x358637BD). If the predicate evaluates to the bit 1, every element of every
  compared array is 1; an extended real x with max x (-x) < ⊤ is neither ⊤ nor ⊥, hence a real.
-/
import proofs.«122857_j38010460570139_2_alg».proof.Pre_finite_inputs
import proofs.«122857_j38010460570139_2_alg».proof.Proof.Gen.Pre_finite_inputs
import Idealize.ShloMosaic.PureOps.Ideal
import Idealize.ShloMosaic.Lib.ReduceAll
import Idealize.ShloMosaic.Lib.ValueIdx

noncomputable section

namespace Cert.PreDecode

open Idealize.ShloMosaic Idealize.ShloMosaic.ValueIdx Cert.Pre_finite_inputs

/-- The scalar shape has exactly one index. -/
instance subsingleton_S_ : Subsingleton S_.Idx := ⟨fun _ _ => funext fun d => d.elim0⟩

/-- The f32 pattern 0x7F800000 denotes +∞. -/
theorem ofBits_inf : Ideal.ofBits .f32 0x7F800000#32 = (⊤ : EReal) := by simp [Ideal.ofBits, Ideal.ieee]

/-- The f32 pattern 0x00000000 denotes 0. -/
theorem ofBits_zero : Ideal.ofBits .f32 0x00000000#32 = (0 : EReal) := by simp [Ideal.ofBits, Ideal.ieee]

/-- ε as a real: the f32 pattern 0x358637BD is the normal number (2^23 + 407485) · 2^(107 - 127 - 23). -/
theorem ofBits_eps : Ideal.ofBits .f32 0x358637BD#32 = (((8796093 : ℝ) * (2 : ℝ) ^ (-43 : Int) : ℝ) : EReal) := by
  simp [Ideal.ofBits, Ideal.ieee, -EReal.coe_mul]

/-- ε is a real number. -/
theorem eps_real : ∃ r : ℝ, Ideal.ofBits .f32 0x358637BD#32 = (r : EReal) := ⟨_, ofBits_eps⟩

/-- ε is positive. -/
theorem eps_pos : (0 : ℝ) < (8796093 : ℝ) * (2 : ℝ) ^ (-43 : Int) := by positivity

/-- An extended real whose absolute value max x (-x) is strictly below +∞ is a real number:
    at x = ⊤ the maximum is ⊤, at x = ⊥ it is -⊥ = ⊤, and ⊤ < ⊤ is false. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The comparison "not equal" giving the bit 1 says the two extended reals differ. -/
theorem ne_of_cmp_une (x y : EReal) (h : Ideal.cmp .une x y = 1#1) : x ≠ y := by
  intro hxy
  subst hxy
  simp [Ideal.cmp] at h

/-- THE PRECONDITION DECODED: if `finite_inputs` holds (its one result bit is 1) then every element of
    arguments 0, 2 and 3 is a real number and every element of argument 3 plus ε is nonzero. -/
theorem decode (a0 : FVec Ideal S100000x4 .f32) (a1 : IVec S2x3200000 32)
    (a2 : FVec Ideal S3200000 .f32) (a3 : FVec Ideal S3200000x2 .f32)
    (h : fn (F := Ideal) a0 a1 a2 a3 = fun _ => 1#1) :
    (∀ i, ∃ r : ℝ, a0 i = (r : EReal)) ∧ (∀ i, ∃ r : ℝ, a2 i = (r : EReal)) ∧
    (∀ i, ∃ r : ℝ, a3 i = (r : EReal)) ∧ (∀ i, a3 i + Ideal.ofBits .f32 0x358637BD#32 ≠ 0) := by
  -- the predicate's value at the scalar's one index
  have h0 := congrFun h ix0
  dsimp only [fn, fn_part1] at h0
  -- a conjunction of bits is 1 exactly when each bit is
  obtain ⟨h012, h4⟩ := IntOp.andi_eq_one.1 h0
  obtain ⟨h01, h3⟩ := IntOp.andi_eq_one.1 h012
  obtain ⟨h1, h2⟩ := IntOp.andi_eq_one.1 h01
  refine ⟨fun i => ?_, fun i => ?_, fun i => ?_, fun i => ?_⟩
  · -- |arg0 i| < +∞
    exact real_of_abs_lt_inf (a0 i) (Host.reduce_andi_all _ _ _ _ ix0 h1 i)
  · -- |arg2 i| < +∞
    exact real_of_abs_lt_inf (a2 i) (Host.reduce_andi_all _ _ _ _ ix0 h2 i)
  · -- |arg3 i| < +∞
    exact real_of_abs_lt_inf (a3 i) (Host.reduce_andi_all _ _ _ _ ix0 h3 i)
  · -- arg3 i + ε ≠ 0
    have hne := ne_of_cmp_une (a3 i + Ideal.ofBits .f32 0x358637BD#32) (Ideal.ofBits .f32 0x00000000#32)
      (Host.reduce_andi_all _ _ _ _ ix0 h4 i)
    rwa [ofBits_zero] at hne

end Cert.PreDecode

end
-- ==== Proof.Bridge.lean ====
/-
  THE BRIDGE: the kernel program's node flows are the reference's.

  On one edge, with r the source's row, A = a[r,0], B = a[r,1], P the edge's probability, C its parameter and ε the shift:
  the kernel's flow is ((A·A + B·B)·P) / (C + ε) — the gathered squared voltage times the probability, divided — and the
  reference's is (√x·√x / (C + ε))·P for x = A·A + B·B. Every entry is real (the inputs are finite) and C + ε is non-zero
  (the statement's domain), so the two are one number. At a node n the kernel sums the edge flows along the sources and
  along the remapped targets (the dummy row 100000 on a self-loop, which is no node); the reference sums them along the
  sources and, along the plain targets, with 0 on the self-loops: the same sums.
-/
import proofs.«122857_j38010460570139_2_alg».proof.Proof.EdgeFlows
import proofs.«122857_j38010460570139_2_alg».proof.Proof.EdgeReads
import proofs.«122857_j38010460570139_2_alg».proof.Proof.NodeFlowK
import proofs.«122857_j38010460570139_2_alg».proof.Proof.NodeFlowR
import proofs.«122857_j38010460570139_2_alg».proof.Proof.EdgeLaw
import proofs.«122857_j38010460570139_2_alg».proof.Proof.PreDecode

noncomputable section

open scoped BigOperators

namespace Cert.Bridge

open Idealize.ShloMosaic Idealize.ShloMosaic.ValueIdx
open Cert.KernelIdeal

variable (a0 : FVec Ideal S100000x4 .f32) (a1 : IVec S2x3200000 32) (a2 : FVec Ideal S3200000 .f32) (a3 : FVec Ideal S3200000x2 .f32)

/-- Both programs read the source as the same row number. -/
theorem rowK_eq : Cert.KernelTerm.rowK a1 = Cert.Loss.rowV a1 := rfl

/-- The kernel's gathered squared voltage on edge e. -/
theorem v2src_apply (e : Fin 3200000) :
    Cert.KernelTerm.v2src (F := Ideal) a0 a1 (ix1 e)
      = a0 (ix2 (Cert.EdgeReads.row (Cert.Loss.rowV a1) e) 0) * a0 (ix2 (Cert.EdgeReads.row (Cert.Loss.rowV a1) e) 0)
        + a0 (ix2 (Cert.EdgeReads.row (Cert.Loss.rowV a1) e) 1) * a0 (ix2 (Cert.EdgeReads.row (Cert.Loss.rowV a1) e) 1) :=
  Cert.EdgeReads.kernel_gather_apply a0 (Cert.KernelTerm.rowK a1) e

/-- The reference's two source features on edge e. -/
theorem srcFeature0_apply (e : Fin 3200000) :
    Cert.Loss.srcFeature (F := Ideal) 0#32 a0 a1 (ix1 e) = a0 (ix2 (Cert.EdgeReads.row (Cert.Loss.rowV a1) e) 0) :=
  Cert.EdgeReads.ref_gather0_apply a0 (Cert.Loss.rowV a1) e
theorem srcFeature1_apply (e : Fin 3200000) :
    Cert.Loss.srcFeature (F := Ideal) 1#32 a0 a1 (ix1 e) = a0 (ix2 (Cert.EdgeReads.row (Cert.Loss.rowV a1) e) 1) :=
  Cert.EdgeReads.ref_gather1_apply a0 (Cert.Loss.rowV a1) e

variable (h0 : ∀ i, ∃ r : ℝ, a0 i = (r : EReal)) (h2 : ∀ i, ∃ r : ℝ, a2 i = (r : EReal)) (h3 : ∀ i, ∃ r : ℝ, a3 i = (r : EReal))
  (hne : ∀ i, a3 i + Ideal.ofBits .f32 0x358637BD#32 ≠ 0)

include h0 h2 h3 hne in
/-- ONE EDGE, active flow: the kernel's quotient is the reference's. -/
theorem edge_eq0 (e : Fin 3200000) :
    Ideal.div (Cert.KernelTerm.v2src (F := Ideal) a0 a1 (ix1 e) * a2 (ix1 e))
        (Cert.KernelTerm.parK0 (F := Ideal) a3 (ix1 e) + Ideal.ofBits .f32 0x358637BD#32)
      = Cert.Loss.edgeFlowR (F := Ideal) a0 a1 a2 (Cert.Loss.par0 a3) (ix1 e) := by
  rw [Cert.EdgeFlows.edgeFlowR_apply, srcFeature0_apply, srcFeature1_apply, v2src_apply, Cert.NodeFlowK.parK0_apply,
    Cert.NodeFlowK.par0_apply]
  exact Cert.EdgeLaw.edge_flow_ereal _ _ _ _ _ (h0 _) (h0 _) (h2 _) (h3 _) Cert.PreDecode.eps_real (hne _)

include h0 h2 h3 hne in
/-- ONE EDGE, reactive flow. -/
theorem edge_eq1 (e : Fin 3200000) :
    Ideal.div (Cert.KernelTerm.v2src (F := Ideal) a0 a1 (ix1 e) * a2 (ix1 e))
        (Cert.KernelTerm.parK1 (F := Ideal) a3 (ix1 e) + Ideal.ofBits .f32 0x358637BD#32)
      = Cert.Loss.edgeFlowR (F := Ideal) a0 a1 a2 (Cert.Loss.par1 a3) (ix1 e) := by
  rw [Cert.EdgeFlows.edgeFlowR_apply, srcFeature0_apply, srcFeature1_apply, v2src_apply, Cert.NodeFlowK.parK1_apply,
    Cert.NodeFlowK.par1_apply]
  exact Cert.EdgeLaw.edge_flow_ereal _ _ _ _ _ (h0 _) (h0 _) (h2 _) (h3 _) Cert.PreDecode.eps_real (hne _)

/-- The remapped target, read signed: the dummy row on a self-loop, the target elsewhere (over the reference's names). -/
theorem dstEff_remap (e : Fin 3200000) :
    (Cert.KernelTerm.dstEff a1 (ix1 e)).toInt
      = if Cert.Loss.srcV a1 (ix1 e) = Cert.Loss.dstV a1 (ix1 e) then (100000 : Int) else (Cert.Loss.dstV a1 (ix1 e)).toInt :=
  Cert.NodeFlowK.dstEff_toInt a1 e

/-- A NODE: given edge values f that are the reference's edge flows g edge by edge, the kernel's node flow of f at node n
    (sources + remapped targets) is the reference's node flow of g (sources + targets off the self-loops). -/
theorem node_eq (f g : Fin 3200000 → EReal) (hfg : ∀ e, f e = g e) (n : Fin 100000) :
    ((0 : EReal) + ∑ e ∈ Finset.univ.filter (fun e : Fin 3200000 => (Cert.KernelTerm.srcK a1 (ix1 e)).toInt = (n.val : Int)), f e)
      + ((0 : EReal) + ∑ e ∈ Finset.univ.filter (fun e : Fin 3200000 => (Cert.KernelTerm.dstEff a1 (ix1 e)).toInt = (n.val : Int)), f e)
    = ((0 : EReal) + ∑ e ∈ Finset.univ.filter (fun e : Fin 3200000 => (Cert.Loss.srcV a1 (ix1 e)).toInt = (n.val : Int)), g e)
      + ((0 : EReal) + ∑ e ∈ Finset.univ.filter (fun e : Fin 3200000 => (Cert.Loss.dstV a1 (ix1 e)).toInt = (n.val : Int)),
          (if Cert.Loss.srcV a1 (ix1 e) = Cert.Loss.dstV a1 (ix1 e) then (0 : EReal) else g e)) :=
  Cert.EdgeLaw.node_bridge (E := Fin 3200000)
    (fun e => (Cert.KernelTerm.srcK a1 (ix1 e)).toInt) (fun e => (Cert.Loss.srcV a1 (ix1 e)).toInt)
    (fun e => (Cert.Loss.dstV a1 (ix1 e)).toInt) (fun e => (Cert.KernelTerm.dstEff a1 (ix1 e)).toInt)
    (fun e => Cert.Loss.srcV a1 (ix1 e) = Cert.Loss.dstV a1 (ix1 e)) (n.val : Int) (100000 : Int)
    (by have := n.isLt; omega) (fun _ => rfl) (fun e => dstEff_remap a1 e) f g hfg

include h0 h2 h3 hne in
/-- THE ACTIVE NODE FLOWS: for tiles P, Q whose flattened P holds the kernel's active edge flows, the kernel program's
    active node flow is the reference's. -/
theorem pflow_eq (P Q : FVec Ideal S25000x128 .f32)
    (hP : ∀ e : Fin 3200000, Cert.KernelTerm.untile P (ix1 e)
      = Ideal.div (Cert.KernelTerm.v2src (F := Ideal) a0 a1 (ix1 e) * a2 (ix1 e))
          (Cert.KernelTerm.parK0 (F := Ideal) a3 (ix1 e) + Ideal.ofBits .f32 0x358637BD#32)) :
    Cert.KernelTerm.pK (F := Ideal) a1 P Q
      = Cert.Loss.nodeFlowR (F := Ideal) a1 (Cert.Loss.edgeFlowR (F := Ideal) a0 a1 a2 (Cert.Loss.par0 a3)) := by
  funext i
  obtain ⟨n, rfl⟩ : ∃ n : Fin 100000, i = ix1 n := ⟨i 0, eq_ix1 i⟩
  refine (Cert.NodeFlowK.pK_apply a1 P Q n).trans ?_
  refine (node_eq a1 (fun e => Cert.KernelTerm.untile P (ix1 e))
    (fun e => Cert.Loss.edgeFlowR (F := Ideal) a0 a1 a2 (Cert.Loss.par0 a3) (ix1 e))
    (fun e => (hP e).trans (edge_eq0 a0 a1 a2 a3 h0 h2 h3 hne e)) n).trans ?_
  exact (Cert.NodeFlowR.nodeFlowR_apply a1 _ n).symm

include h0 h2 h3 hne in
/-- THE REACTIVE NODE FLOWS. -/
theorem qflow_eq (P Q : FVec Ideal S25000x128 .f32)
    (hQ : ∀ e : Fin 3200000, Cert.KernelTerm.untile Q (ix1 e)
      = Ideal.div (Cert.KernelTerm.v2src (F := Ideal) a0 a1 (ix1 e) * a2 (ix1 e))
          (Cert.KernelTerm.parK1 (F := Ideal) a3 (ix1 e) + Ideal.ofBits .f32 0x358637BD#32)) :
    Cert.KernelTerm.qK (F := Ideal) a1 P Q
      = Cert.Loss.nodeFlowR (F := Ideal) a1 (Cert.Loss.edgeFlowR (F := Ideal) a0 a1 a2 (Cert.Loss.par1 a3)) := by
  funext i
  obtain ⟨n, rfl⟩ : ∃ n : Fin 100000, i = ix1 n := ⟨i 0, eq_ix1 i⟩
  refine (Cert.NodeFlowK.qK_apply a1 P Q n).trans ?_
  refine (node_eq a1 (fun e => Cert.KernelTerm.untile Q (ix1 e))
    (fun e => Cert.Loss.edgeFlowR (F := Ideal) a0 a1 a2 (Cert.Loss.par1 a3) (ix1 e))
    (fun e => (hQ e).trans (edge_eq1 a0 a1 a2 a3 h0 h2 h3 hne e)) n).trans ?_
  exact (Cert.NodeFlowR.nodeFlowR_apply a1 _ n).symm

include h0 h2 h3 hne in
/-- THE RESULTS: the loss of the kernel program's node flows is the loss of the reference's. -/
theorem result_eq (P Q : FVec Ideal S25000x128 .f32)
    (hP : ∀ e : Fin 3200000, Cert.KernelTerm.untile P (ix1 e)
      = Ideal.div (Cert.KernelTerm.v2src (F := Ideal) a0 a1 (ix1 e) * a2 (ix1 e))
          (Cert.KernelTerm.parK0 (F := Ideal) a3 (ix1 e) + Ideal.ofBits .f32 0x358637BD#32))
    (hQ : ∀ e : Fin 3200000, Cert.KernelTerm.untile Q (ix1 e)
      = Ideal.div (Cert.KernelTerm.v2src (F := Ideal) a0 a1 (ix1 e) * a2 (ix1 e))
          (Cert.KernelTerm.parK1 (F := Ideal) a3 (ix1 e) + Ideal.ofBits .f32 0x358637BD#32)) :
    Cert.KernelTerm.resultK (F := Ideal) a0 a1 P Q = Cert.Loss.resultR (F := Ideal) a0 a1 a2 a3 :=
  congrArg₂ (Cert.Loss.loss (F := Ideal) a0) (pflow_eq a0 a1 a2 a3 h0 h2 h3 hne P Q hP) (qflow_eq a0 a1 a2 a3 h0 h2 h3 hne P Q hQ)

end Cert.Bridge

end
-- ==== Proof.RefResult.lean ====
/-
  THE REFERENCE'S RUN, read: its result is `resultR` of the four argument arrays — the loss of the node flows summed from
  the reference's edge flows — and its arguments end as they began. The composed term the run states spells out every
  operation of the program; `resultR` and the functions under it (Proof/Loss.lean) are that same tree with its repeated
  parts named, so the two are equal by unfolding the names.
-/
import proofs.«122857_j38010460570139_2_alg».proof.Proof.ReferenceRunPatched
import proofs.«122857_j38010460570139_2_alg».proof.Proof.Loss

noncomputable section

namespace Cert.RefResult

open Idealize.ShloMosaic Idealize.ShloMosaic.TcCoe Idealize.SL.Sem Cert.ReferenceIdeal Cert.ReferenceIdeal.Gen

variable {F : FTy → Type} [FloatOps F]

set_option maxRecDepth 8192 in
set_option maxHeartbeats 4000000 in
/-- The run's result term is `resultR` of the arguments' launch contents. -/
theorem res_eq (m : (ℓ : Loc nD τ sig) → Buf (Elt F) ℓ) (c : Dev nD) :
    Cert.ReferenceIdeal.ValueP.res_main_v90 m c
      = Cert.Loss.resultR (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v90 Cert.Loss.resultR Cert.Loss.loss Cert.Loss.meanN Cert.Loss.vmag
    Cert.Loss.nodeFlowR Cert.Loss.edgeFlowR Cert.Loss.srcV2R Cert.Loss.srcFeature Cert.Loss.rowV Cert.Loss.selfLoop
    Cert.Loss.asIndex Cert.Loss.srcV Cert.Loss.dstV Cert.Loss.par0 Cert.Loss.par1 Cert.Loss.epsV
    Cert.Loss.col0 Cert.Loss.col1 Cert.Loss.col2 Cert.Loss.col3
  rfl

/-- THE REFERENCE'S RUN with its result named: every weakly fair execution terminates with the result at `resultR` of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
          = Cert.Loss.resultR (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq m c), (h c).2⟩)
    (Cert.ReferenceIdeal.ValueP.run (F := F) m ρ)

end Cert.RefResult

end
-- ==== Proof.PreDecodeMem.lean ====
/-
  The precondition of the idealized kernel, decoded on its initial memory: on every device the
  argument arrays 0, 2 and 3 hold real numbers only, and every element of argument 3 plus ε
  (the f32 constant 0x358637BD) is nonzero. The memory's buffer at a float argument's location is,
  by definition of the program's signature, the array of extended reals the predicate is applied to;
  the statement names the carrier `EReal` explicitly so that the sum is the extended reals' sum.
-/
import proofs.«122857_j38010460570139_2_alg».proof.Defs
import proofs.«122857_j38010460570139_2_alg».proof.Proof.PreDecode

noncomputable section

namespace Cert.PreDecode

open Idealize.ShloMosaic Idealize.SL.Sem Cert.Pre_finite_inputs

/-- THE PRECONDITION DECODED ON THE MEMORY: under `Pre_KernelIdeal m`, on every device `c`, the buffers of
    arguments 0, 2, 3 are real-valued and argument 3 plus ε vanishes nowhere. -/
theorem decode_mem
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S100000x4.Idx, ∃ r : ℝ,
      @Eq EReal (m ((c.tc : Thread Cert.KernelIdeal.nD Cert.KernelIdeal.τ).loc Cert.KernelIdeal.main_arg0) i) (r : EReal)) ∧
    (∀ i : S3200000.Idx, ∃ r : ℝ,
      @Eq EReal (m ((c.tc : Thread Cert.KernelIdeal.nD Cert.KernelIdeal.τ).loc Cert.KernelIdeal.main_arg2) i) (r : EReal)) ∧
    (∀ i : S3200000x2.Idx, ∃ r : ℝ,
      @Eq EReal (m ((c.tc : Thread Cert.KernelIdeal.nD Cert.KernelIdeal.τ).loc Cert.KernelIdeal.main_arg3) i) (r : EReal)) ∧
    (∀ i : S3200000x2.Idx,
      @HAdd.hAdd EReal EReal EReal instHAdd
        (m ((c.tc : Thread Cert.KernelIdeal.nD Cert.KernelIdeal.τ).loc Cert.KernelIdeal.main_arg3) i)
        (Ideal.ofBits .f32 0x358637BD#32) ≠ 0) :=
  decode _ _ _ _ (hpre c)

end Cert.PreDecode

end
-- ==== Proof.lean ====
/-
  The certificate of a power-flow loss computed two ways.

  The reference walks the 3,200,000 edges: for an edge from s to d it gathers the source node's first two features
  (A, B), forms x = A·A + B·B, and takes (√x·√x / (e + ε))·p for the edge's two parameters e and its probability p — an
  active and a reactive flow; each flow is added into its source node, and into its target node unless the edge is a
  self-loop; the loss is the mean over the nodes of (load + flow)², active plus reactive, plus a voltage-band penalty
  that depends on the node features alone. The kernel program squares and adds per NODE first and gathers that one number
  per edge; a five-point tiled region computes (x·p) / (e + ε) for both parameters over [25000, 128] tiles; the host
  stacks the two flows as columns and adds row e into node s of one accumulator and into node d — or a dummy extra row
  on a self-loop, cut off afterwards — of another; the same loss follows.

  Over the extended reals the two agree wherever every float input is finite and no shifted edge parameter e + ε is
  zero (the statement's domain; at e + ε = 0 the two quotients differ, 0/0 against (x/0)·0): then √x·√x = x for the
  non-negative real x, a quotient by the non-zero real e + ε is a product with its inverse, and the products commute;
  and at a real node n the sum over the edges remapped to n is the sum over the edges targeting n off the self-loops.
  The proof reads each program's result as `loss` of its node flows (Proof/Loss.lean, never opened), the node flows as
  sums over edges (Proof/NodeFlowK.lean, Proof/NodeFlowR.lean), the edge flows at an edge (Proof/EdgeFlows.lean,
  Proof/EdgeReads.lean), and joins them by the two laws of Proof/EdgeLaw.lean (Proof/Bridge.lean). The three frames:
  the two kernel programs run their region point by point, each point loading four blocks and storing two, the lines
  after the region writing no argument (Proof/FrameBits.lean, Proof/FrameIdeal.lean); the reference is a straight line of
  host operations. The idealization rewrote nothing, so `preserves` is `True`.
-/
import proofs.«122857_j38010460570139_2_alg».proof.Defs
import proofs.«122857_j38010460570139_2_alg».proof.Proof.Gen.Kernel
import proofs.«122857_j38010460570139_2_alg».proof.Proof.Gen.KernelIdeal
import proofs.«122857_j38010460570139_2_alg».proof.Proof.Gen.ReferenceIdeal
import proofs.«122857_j38010460570139_2_alg».proof.Proof.Gen.Pre_finite_inputs
import proofs.«122857_j38010460570139_2_alg».proof.Proof.FrameBits
import proofs.«122857_j38010460570139_2_alg».proof.Proof.FrameIdeal
import proofs.«122857_j38010460570139_2_alg».proof.Proof.KernelRead
import proofs.«122857_j38010460570139_2_alg».proof.Proof.EdgeFlows
import proofs.«122857_j38010460570139_2_alg».proof.Proof.Bridge
import proofs.«122857_j38010460570139_2_alg».proof.Proof.RefResult
import proofs.«122857_j38010460570139_2_alg».proof.Proof.PreDecodeMem
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its four arguments as they were. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- And the reference: its run, with the result dropped. -/
theorem frame_ri : Cert.frame_ReferenceIdeal := fun m ρ _ =>
  (θ_run Cert.ReferenceIdeal.defs _ _).mono (fun _ h c => (h c).2) (Cert.RefResult.run (F := Ideal) m ρ)

/-- The idealization rewrote no operation. -/
theorem preserves : Cert.preserves_Kernel_KernelIdeal := trivial

/-- Over the extended reals, from memories agreeing on the arguments, both programs end at the reference's result of
    those arguments: the kernel program's `loss` of its node flows is the reference's (the bridge), under the finiteness
    and non-zero facts the precondition gives. -/
theorem algebraic : Cert.algebraic_KernelIdeal_ReferenceIdeal := by
  intro m ρ m' ρ' hpre hagree
  refine ⟨fun c => Cert.Loss.resultR (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run_result (F := Ideal) m ρ)
    obtain ⟨h0, h2, h3, hne⟩ := Cert.PreDecode.decode_mem m hpre c
    exact Cert.Bridge.result_eq _ _ _ _ h0 h2 h3 hne _ _ (Cert.EdgeFlows.edgeK0_apply m c) (Cert.EdgeFlows.edgeK1_apply m c)
  · refine (θ_run Cert.ReferenceIdeal.defs _ _).mono (fun r h c => ⟨(h c).1.trans ?_, (h c).2⟩)
      (Cert.RefResult.run (F := Ideal) m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
